-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x10 : Shape := ⟨2, ![200000, 10]⟩
abbrev S10x10 : Shape := ⟨2, ![10, 10]⟩
abbrev S12800000 : Shape := ⟨1, ![12800000]⟩
abbrev S_ : Shape := ⟨0, ![]⟩

class Facts : Prop where
  bcast_S_S200000x10 : S_.BroadcastsInDim S200000x10 (![] : Fin 0 → Fin S200000x10.rank)
  reducesTo_S200000x10_S_d0_1 : S200000x10.ReducesTo [0, 1] S_
  h_S_ : 0 < S_.numel
  bcast_S_S10x10 : S_.BroadcastsInDim S10x10 (![] : Fin 0 → Fin S10x10.rank)
  reducesTo_S10x10_S_d0_1 : S10x10.ReducesTo [0, 1] S_

variable [Facts]

def fn {F : FTy → Type} [FloatOps F] (main_arg0 : FVec F S200000x10 .f32) (main_arg1 : FVec F S10x10 .f32) (main_arg2 : FVec F S10x10 .f32) (main_arg3 : IVec S12800000 32) (main_arg4 : IVec S12800000 32) : IVec S_ 1 :=
  let main_v0 : FVec F S200000x10 .f32 := Host.absf main_arg0
  let main_cst : FVec F S_ .f32 := constant S_ .f32 0x7F800000#32
  let main_v1 : FVec F S200000x10 .f32 := broadcastInDim S200000x10 ![] bcast_S_S200000x10 main_cst
  let main_v2 : IVec S200000x10 1 := cmpf .olt main_v0 main_v1
  let main_c : IVec S_ 1 := constantI S_ 1 1#1
  let main_v3 : IVec S_ 1 := (fun x v => Host.reduce IntOp.andi x v reducesTo_S200000x10_S_d0_1 h_S_) main_v2 main_c
  let main_v4 : FVec F S10x10 .f32 := Host.absf main_arg1
  let main_cst_0 : FVec F S_ .f32 := constant S_ .f32 0x7F800000#32
  let main_v5 : FVec F S10x10 .f32 := broadcastInDim S10x10 ![] bcast_S_S10x10 main_cst_0
  let main_v6 : IVec S10x10 1 := cmpf .olt main_v4 main_v5
  let main_c_1 : IVec S_ 1 := constantI S_ 1 1#1
  let main_v7 : IVec S_ 1 := (fun x v => Host.reduce IntOp.andi x v reducesTo_S10x10_S_d0_1 h_S_) main_v6 main_c_1
  let main_v8 : IVec S_ 1 := andi main_v3 main_v7
  let main_v9 : FVec F S10x10 .f32 := Host.absf main_arg2
  let main_cst_2 : FVec F S_ .f32 := constant S_ .f32 0x7F800000#32
  let main_v10 : FVec F S10x10 .f32 := broadcastInDim S10x10 ![] bcast_S_S10x10 main_cst_2
  let main_v11 : IVec S10x10 1 := cmpf .olt main_v9 main_v10
  let main_c_3 : IVec S_ 1 := constantI S_ 1 1#1
  let main_v12 : IVec S_ 1 := (fun x v => Host.reduce IntOp.andi x v reducesTo_S10x10_S_d0_1 h_S_) main_v11 main_c_3
  let main_v13 : IVec S_ 1 := andi main_v8 main_v12
  main_v13
-- ==== Kernel.lean ====
abbrev S200000x10 : Shape := ⟨2, ![200000, 10]⟩
abbrev S10x10 : Shape := ⟨2, ![10, 10]⟩
abbrev S12800000 : Shape := ⟨1, ![12800000]⟩
abbrev S_ : Shape := ⟨0, ![]⟩
abbrev S200000x1 : Shape := ⟨2, ![200000, 1]⟩
abbrev S200000x11 : Shape := ⟨2, ![200000, 11]⟩
abbrev S12800000x1 : Shape := ⟨2, ![12800000, 1]⟩
abbrev S12800000x11 : Shape := ⟨2, ![12800000, 11]⟩
abbrev S10000x11 : Shape := ⟨2, ![10000, 11]⟩
abbrev S10000x10 : Shape := ⟨2, ![10000, 10]⟩
abbrev S10000x1 : Shape := ⟨2, ![10000, 1]⟩

abbrev nBuf : Space → Nat
  | .hbm => 23
  | .vmem => 5
  | .smem => 0
  | _ => 0

abbrev bufTy : (tb : Table) → Fin (tcTables nBuf tb) → BufTy
  | .hbm, ⟨0, _⟩ => ⟨S200000x10, .f32⟩
  | .hbm, ⟨1, _⟩ => ⟨S10x10, .f32⟩
  | .hbm, ⟨2, _⟩ => ⟨S10x10, .f32⟩
  | .hbm, ⟨3, _⟩ => ⟨S12800000, .i32⟩
  | .hbm, ⟨4, _⟩ => ⟨S12800000, .i32⟩
  | .hbm, ⟨5, _⟩ => ⟨S_, .f32⟩
  | .hbm, ⟨6, _⟩ => ⟨S200000x1, .f32⟩
  | .hbm, ⟨7, _⟩ => ⟨S200000x11, .f32⟩
  | .hbm, ⟨8, _⟩ => ⟨S_, .i32⟩
  | .hbm, ⟨9, _⟩ => ⟨S12800000, .i32⟩
  | .hbm, ⟨10, _⟩ => ⟨S12800000, .i1⟩
  | .hbm, ⟨11, _⟩ => ⟨S_, .i32⟩
  | .hbm, ⟨12, _⟩ => ⟨S12800000, .i32⟩
  | .hbm, ⟨13, _⟩ => ⟨S12800000, .i32⟩
  | .hbm, ⟨14, _⟩ => ⟨S12800000, .i32⟩
  | .hbm, ⟨15, _⟩ => ⟨S12800000x1, .i32⟩
  | .hbm, ⟨16, _⟩ => ⟨S12800000x11, .f32⟩
  | .hbm, ⟨17, _⟩ => ⟨S_, .f32⟩
  | .hbm, ⟨18, _⟩ => ⟨S200000x11, .f32⟩
  | .hbm, ⟨19, _⟩ => ⟨S12800000x1, .i32⟩
  | .hbm, ⟨20, _⟩ => ⟨S200000x11, .f32⟩
  | .hbm, ⟨21, _⟩ => ⟨S10x10, .f32⟩
  | .hbm, ⟨22, _⟩ => ⟨S200000x10, .f32⟩
  | .local _ .vmem, ⟨0, _⟩ => ⟨S10000x11, .f32⟩
  | .local _ .vmem, ⟨1, _⟩ => ⟨S10000x11, .f32⟩
  | .local _ .vmem, ⟨2, _⟩ => ⟨S10x10, .f32⟩
  | .local _ .vmem, ⟨3, _⟩ => ⟨S10000x10, .f32⟩
  | .local _ .vmem, ⟨4, _⟩ => ⟨S10000x10, .f32⟩
  | _, _ => ⟨S200000x10, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x11 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10x10 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x10 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S200000x1 : S_.BroadcastsInDim S200000x1 (![] : Fin 0 → Fin S200000x1.rank)
  concatenates_S200000x10_S200000x1_S200000x11_d1 : Shape.Concatenates [S200000x10, S200000x1] S200000x11 1
  bcast_S_S12800000 : S_.BroadcastsInDim S12800000 (![] : Fin 0 → Fin S12800000.rank)
  bcast_S12800000_S12800000x1_0 : S12800000.BroadcastsInDim S12800000x1 (![0] : Fin 1 → Fin S12800000x1.rank)
  bcast_S_S200000x11 : S_.BroadcastsInDim S200000x11 (![] : Fin 0 → Fin S200000x11.rank)
  inb_S10000x11_S10000x11_0_0 : ∀ a, (![0, 0] : Fin 2 → Nat) a + S10000x11.size a ≤ S10000x11.size a
  h_S10000x11 : 0 < S10000x11.numel
  shapeCasts_S10000x11_S10000x11 : S10000x11.ShapeCasts S10000x11
  slices_S10000x11_o0_10_S10000x1 : S10000x11.Slices ![0, 10] S10000x1
  slices_S10000x11_o0_0_S10000x10 : S10000x11.Slices ![0, 0] S10000x10
  broadcasts_S10000x1_S10000x10 : S10000x1.Broadcasts S10000x10
  bitsLt_bf16_f32 : FTy.bits .bf16 < FTy.bits .f32
  inb_S10x10_S10x10_0_0 : ∀ a, (![0, 0] : Fin 2 → Nat) a + S10x10.size a ≤ S10x10.size a
  h_S10x10 : 0 < S10x10.numel
  shapeCasts_S10x10_S10x10 : S10x10.ShapeCasts S10x10
  transposes_S10x10_p1_0_S10x10 : S10x10.Transposes [1, 0] S10x10
  inb_S10000x10_S10000x10_0_0 : ∀ a, (![0, 0] : Fin 2 → Nat) a + S10000x10.size a ≤ S10000x10.size a
  h_S10000x10 : 0 < S10000x10.numel
  gather_S200000x11_S12800000x1_S12800000x11_1_0_n_n_0_1_111_wf : GatherDims.WF S200000x11 S12800000x1 S12800000x11 [1] [0] [] [0] [] 1 ![1, 11]
  scatter_S200000x11_S12800000x1_S12800000x11_1_0_0_1_wf : ScatterDims.WF S200000x11 S12800000x1 S12800000x11 [1] [0] [0] 1
  dot_S10000x10_S10x10_S10000x10_1_0_0_1_n_n_wf : DotDims.WF S10000x10 S10x10 S10000x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x11.size a ≤ S200000x11.size a
  hwx0_0 : ∀ i : grid0.Coords, EltTy.bits .f32 = 32 ∨ (Rect.block (s := S200000x11) S10000x11.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10x10.size a ≤ S10x10.size a
  hwx0_1 : ∀ i : grid0.Coords, EltTy.bits .f32 = 32 ∨ (Rect.block (s := S10x10) S10x10.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x10.size a ≤ S200000x10.size a
  hwx0_2 : ∀ i : grid0.Coords, EltTy.bits .f32 = 32 ∨ (Rect.block (s := S200000x10) S10000x10.size (cc0_transform_2 i) (hinb0_2 i)).WholeWords (EltTy.packing .f32)

variable [Facts₀]

def gather_S200000x11_S12800000x1_S12800000x11_1_0_n_n_0_1_111 : GatherDims S200000x11 S12800000x1 S12800000x11 where
  offsetDims := [1]
  collapsedSliceDims := [0]
  operandBatchingDims := []
  startIndicesBatchingDims := []
  startIndexMap := [0]
  indexVectorDim := 1
  sliceSizes := ![1, 11]
  wf := gather_S200000x11_S12800000x1_S12800000x11_1_0_n_n_0_1_111_wf
def scatter_S200000x11_S12800000x1_S12800000x11_1_0_0_1 : ScatterDims S200000x11 S12800000x1 S12800000x11 where
  updateWindowDims := [1]
  insertedWindowDims := [0]
  scatterDimsToOperandDims := [0]
  indexVectorDim := 1
  wf := scatter_S200000x11_S12800000x1_S12800000x11_1_0_0_1_wf
def dot_S10000x10_S10x10_S10000x10_1_0_0_1_n_n : DotDims S10000x10 S10x10 S10000x10 where
  lhsContracting := [1]
  rhsContracting := [0]
  lhsNonContracting := [0]
  rhsNonContracting := [1]
  lhsBatch := []
  rhsBatch := []
  wf := dot_S10000x10_S10x10_S10000x10_1_0_0_1_n_n_wf

abbrev win0_0 : Pipeline.Window sig grid0 :=
  Pipeline.Window.ofSpec (Memref.whole main_v11) S10000x11.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S10x10.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S10000x10.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S200000x10 : Shape := ⟨2, ![200000, 10]⟩
abbrev S10x10 : Shape := ⟨2, ![10, 10]⟩
abbrev S12800000 : Shape := ⟨1, ![12800000]⟩
abbrev S_ : Shape := ⟨0, ![]⟩
abbrev S12800000x1 : Shape := ⟨2, ![12800000, 1]⟩
abbrev S12800000x10 : Shape := ⟨2, ![12800000, 10]⟩
abbrev S200000 : Shape := ⟨1, ![200000]⟩
abbrev S200000x1 : Shape := ⟨2, ![200000, 1]⟩

abbrev nBuf : Space → Nat
  | .hbm => 38
  | .vmem => 0
  | .smem => 0
  | _ => 0

abbrev bufTy : (tb : Table) → Fin (tcTables nBuf tb) → BufTy
  | .hbm, ⟨0, _⟩ => ⟨S200000x10, .f32⟩
  | .hbm, ⟨1, _⟩ => ⟨S10x10, .f32⟩
  | .hbm, ⟨2, _⟩ => ⟨S10x10, .f32⟩
  | .hbm, ⟨3, _⟩ => ⟨S12800000, .i32⟩
  | .hbm, ⟨4, _⟩ => ⟨S12800000, .i32⟩
  | .hbm, ⟨5, _⟩ => ⟨S_, .i32⟩
  | .hbm, ⟨6, _⟩ => ⟨S12800000, .i32⟩
  | .hbm, ⟨7, _⟩ => ⟨S12800000, .i1⟩
  | .hbm, ⟨8, _⟩ => ⟨S_, .i32⟩
  | .hbm, ⟨9, _⟩ => ⟨S12800000, .i32⟩
  | .hbm, ⟨10, _⟩ => ⟨S12800000, .i32⟩
  | .hbm, ⟨11, _⟩ => ⟨S12800000, .i32⟩
  | .hbm, ⟨12, _⟩ => ⟨S12800000x1, .i32⟩
  | .hbm, ⟨13, _⟩ => ⟨S12800000x10, .f32⟩
  | .hbm, ⟨14, _⟩ => ⟨S_, .f32⟩
  | .hbm, ⟨15, _⟩ => ⟨S200000x10, .f32⟩
  | .hbm, ⟨16, _⟩ => ⟨S12800000x1, .i32⟩
  | .hbm, ⟨17, _⟩ => ⟨S200000x10, .f32⟩
  | .hbm, ⟨18, _⟩ => ⟨S_, .f32⟩
  | .hbm, ⟨19, _⟩ => ⟨S12800000, .f32⟩
  | .hbm, ⟨20, _⟩ => ⟨S_, .f32⟩
  | .hbm, ⟨21, _⟩ => ⟨S200000, .f32⟩
  | .hbm, ⟨22, _⟩ => ⟨S12800000x1, .i32⟩
  | .hbm, ⟨23, _⟩ => ⟨S200000, .f32⟩
  | .hbm, ⟨24, _⟩ => ⟨S_, .f32⟩
  | .hbm, ⟨25, _⟩ => ⟨S200000, .f32⟩
  | .hbm, ⟨26, _⟩ => ⟨S200000, .f32⟩
  | .hbm, ⟨27, _⟩ => ⟨S200000x1, .f32⟩
  | .hbm, ⟨28, _⟩ => ⟨S200000x10, .f32⟩
  | .hbm, ⟨29, _⟩ => ⟨S200000x10, .f32⟩
  | .hbm, ⟨30, _⟩ => ⟨S10x10, .f32⟩
  | .hbm, ⟨31, _⟩ => ⟨S200000x10, .f32⟩
  | .hbm, ⟨32, _⟩ => ⟨S10x10, .f32⟩
  | .hbm, ⟨33, _⟩ => ⟨S200000x10, .f32⟩
  | .hbm, ⟨34, _⟩ => ⟨S200000x10, .f32⟩
  | .hbm, ⟨35, _⟩ => ⟨S_, .f32⟩
  | .hbm, ⟨36, _⟩ => ⟨S200000x10, .f32⟩
  | .hbm, ⟨37, _⟩ => ⟨S200000x10, .f32⟩
  | _, _ => ⟨S200000x10, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_call0_cst : Ref sig .tc := ⟨.hbm, 35, rfl⟩
abbrev main_call0_v0 : Ref sig .tc := ⟨.hbm, 36, rfl⟩
abbrev main_v24 : Ref sig .tc := ⟨.hbm, 37, rfl⟩

abbrev nD : Nat := 1
abbrev τ : Topo := Topo.v7x

variable {F : FTy → Type} [FloatOps F]

class Facts₀ : Prop where
  bcast_S_S12800000 : S_.BroadcastsInDim S12800000 (![] : Fin 0 → Fin S12800000.rank)
  bcast_S12800000_S12800000x1_0 : S12800000.BroadcastsInDim S12800000x1 (![0] : Fin 1 → Fin S12800000x1.rank)
  bcast_S_S200000x10 : S_.BroadcastsInDim S200000x10 (![] : Fin 0 → Fin S200000x10.rank)
  bcast_S_S200000 : S_.BroadcastsInDim S200000 (![] : Fin 0 → Fin S200000.rank)
  bcast_S200000_S200000x1_0 : S200000.BroadcastsInDim S200000x1 (![0] : Fin 1 → Fin S200000x1.rank)
  bcast_S200000x1_S200000x10_0_1 : S200000x1.BroadcastsInDim S200000x10 (![0, 1] : Fin 2 → Fin S200000x10.rank)
  transposes_S10x10_S10x10_1_0 : S10x10.Transposes [1, 0] S10x10
  gather_S200000x10_S12800000x1_S12800000x10_1_0_n_n_0_1_110_wf : GatherDims.WF S200000x10 S12800000x1 S12800000x10 [1] [0] [] [0] [] 1 ![1, 10]
  scatter_S200000x10_S12800000x1_S12800000x10_1_0_0_1_wf : ScatterDims.WF S200000x10 S12800000x1 S12800000x10 [1] [0] [0] 1
  scatter_S200000_S12800000x1_S12800000_n_0_0_1_wf : ScatterDims.WF S200000 S12800000x1 S12800000 [] [0] [0] 1
  dot_S200000x10_S10x10_S200000x10_1_0_0_1_n_n_wf : DotDims.WF S200000x10 S10x10 S200000x10 [1] [0] [0] [1] [] []

variable [Facts₀]

def gather_S200000x10_S12800000x1_S12800000x10_1_0_n_n_0_1_110 : GatherDims S200000x10 S12800000x1 S12800000x10 where
  offsetDims := [1]
  collapsedSliceDims := [0]
  operandBatchingDims := []
  startIndicesBatchingDims := []
  startIndexMap := [0]
  indexVectorDim := 1
  sliceSizes := ![1, 10]
  wf := gather_S200000x10_S12800000x1_S12800000x10_1_0_n_n_0_1_110_wf
def scatter_S200000x10_S12800000x1_S12800000x10_1_0_0_1 : ScatterDims S200000x10 S12800000x1 S12800000x10 where
  updateWindowDims := [1]
  insertedWindowDims := [0]
  scatterDimsToOperandDims := [0]
  indexVectorDim := 1
  wf := scatter_S200000x10_S12800000x1_S12800000x10_1_0_0_1_wf
def scatter_S200000_S12800000x1_S12800000_n_0_0_1 : ScatterDims S200000 S12800000x1 S12800000 where
  updateWindowDims := []
  insertedWindowDims := [0]
  scatterDimsToOperandDims := [0]
  indexVectorDim := 1
  wf := scatter_S200000_S12800000x1_S12800000_n_0_0_1_wf
def dot_S200000x10_S10x10_S200000x10_1_0_0_1_n_n : DotDims S200000x10 S10x10 S200000x10 where
  lhsContracting := [1]
  rhsContracting := [0]
  lhsNonContracting := [0]
  rhsNonContracting := [1]
  lhsBatch := []
  rhsBatch := []
  wf := dot_S200000x10_S10x10_S200000x10_1_0_0_1_n_n_wf

class Facts : Prop extends Facts₀ where

variable [Facts]
-- ==== Proof.LibRealChain.lean ====
/-
  "Being a real" is preserved along a dense layer and a softmax read on the extended reals.

  An extended real `x` IS A REAL when `x = ↑r` for some `r : ℝ`, equivalently `x ≠ ⊤ ∧ x ≠ ⊥`; it is a
  POSITIVE REAL when moreover `0 < r`. The operations below are the scalar operations of the ideal
  float instance: EReal's `+`, `-`, `*`, `max`, `min`, unary `-`, and `Ideal.tanh`, `Ideal.exp`,
  `Ideal.div`. Each step keeps the value a real:

    • a finite sum of reals, of products of reals, and a real added to it (a dense layer's row);
    • `tanh` of a real (`Real.tanh`);
    • the maximum of two reals, a difference of reals (a softmax's shift by the row maximum);
    • `exp` of a real is a POSITIVE real (`Real.exp`);
    • a nonempty finite sum of positive reals is a positive real (the softmax's denominator);
    • a real divided by a positive real (by a nonzero real) is a real, and it is `↑(a / b)`.
-/
import Idealize.ShloMosaic.PureOps.Ideal
import Mathlib.Data.Finset.Fold

namespace Cert.Lib

open Idealize.ShloMosaic
open scoped BigOperators

/-- An extended real that is (the coercion of) a real. -/
def IsReal (x : EReal) : Prop := ∃ r : ℝ, x = (r : EReal)

/-- An extended real that is a positive real. -/
def IsPosReal (x : EReal) : Prop := ∃ r : ℝ, 0 < r ∧ x = (r : EReal)

/-- Being a real is being neither infinity. -/
theorem isReal_iff {x : EReal} : IsReal x ↔ x ≠ ⊤ ∧ x ≠ ⊥ := by
  constructor
  · rintro ⟨r, rfl⟩; exact ⟨EReal.coe_ne_top r, EReal.coe_ne_bot r⟩
  · rintro ⟨ht, hb⟩; exact ⟨x.toReal, (EReal.coe_toReal ht hb).symm⟩

/-- A coerced real is a real. -/
theorem isReal_coe (r : ℝ) : IsReal (r : EReal) := ⟨r, rfl⟩

/-- Zero is a real. -/
theorem isReal_zero : IsReal 0 := ⟨0, EReal.coe_zero.symm⟩

/-- One is a real. -/
theorem isReal_one : IsReal 1 := ⟨1, EReal.coe_one.symm⟩

/-- A real is the coercion of its real part. -/
theorem IsReal.coe_toReal {x : EReal} (h : IsReal x) : ((x.toReal : ℝ) : EReal) = x := by
  obtain ⟨r, rfl⟩ := h; rw [EReal.toReal_coe]

theorem IsReal.ne_top {x : EReal} (h : IsReal x) : x ≠ ⊤ := (isReal_iff.mp h).1
theorem IsReal.ne_bot {x : EReal} (h : IsReal x) : x ≠ ⊥ := (isReal_iff.mp h).2

/-- A positive real is a real. -/
theorem IsPosReal.isReal {x : EReal} (h : IsPosReal x) : IsReal x := by
  obtain ⟨r, _, rfl⟩ := h; exact ⟨r, rfl⟩

/-- A positive real is above zero. -/
theorem IsPosReal.pos {x : EReal} (h : IsPosReal x) : 0 < x := by
  obtain ⟨r, hr, rfl⟩ := h; exact EReal.coe_pos.mpr hr

/-- A positive real is not zero. -/
theorem IsPosReal.ne_zero {x : EReal} (h : IsPosReal x) : x ≠ 0 := h.pos.ne'

/-- A positive real is a real above zero, and conversely. -/
theorem isPosReal_iff {x : EReal} : IsPosReal x ↔ IsReal x ∧ 0 < x := by
  constructor
  · intro h; exact ⟨h.isReal, h.pos⟩
  · rintro ⟨⟨r, rfl⟩, h⟩; exact ⟨r, EReal.coe_pos.mp h, rfl⟩

/-- The sum of two reals is a real. -/
theorem IsReal.add {x y : EReal} (hx : IsReal x) (hy : IsReal y) : IsReal (x + y) := by
  obtain ⟨a, rfl⟩ := hx; obtain ⟨b, rfl⟩ := hy; exact ⟨a + b, (EReal.coe_add a b).symm⟩

/-- The difference of two reals is a real. -/
theorem IsReal.sub {x y : EReal} (hx : IsReal x) (hy : IsReal y) : IsReal (x - y) := by
  obtain ⟨a, rfl⟩ := hx; obtain ⟨b, rfl⟩ := hy; exact ⟨a - b, (EReal.coe_sub a b).symm⟩

/-- The product of two reals is a real. -/
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The negation of a real is a real. -/
theorem IsReal.neg {x : EReal} (hx : IsReal x) : IsReal (-x) := by
  obtain ⟨a, rfl⟩ := hx; exact ⟨-a, (EReal.coe_neg a).symm⟩

/-- The maximum of two reals is a real. -/
theorem IsReal.max {x y : EReal} (hx : IsReal x) (hy : IsReal y) : IsReal (max x y) := by
  rcases max_choice x y with h | h <;> rw [h] <;> assumption

/-- The minimum of two reals is a real. -/
theorem IsReal.min {x y : EReal} (hx : IsReal x) (hy : IsReal y) : IsReal (min x y) := by
  rcases min_choice x y with h | h <;> rw [h] <;> assumption

/-- A finite sum of reals is a real. -/
theorem IsReal.sum {ι : Type*} (s : Finset ι) (f : ι → EReal) (h : ∀ i ∈ s, IsReal (f i)) :
    IsReal (∑ i ∈ s, f i) := by
  classical
  induction s using Finset.induction_on with
  | empty => rw [Finset.sum_empty]; exact isReal_zero
  | insert a s ha ih =>
    rw [Finset.sum_insert ha]
    exact (h a (Finset.mem_insert_self a s)).add (ih fun i hi => h i (Finset.mem_insert_of_mem hi))

/-- A sum of reals over a whole finite type is a real. -/
theorem IsReal.sum_univ {ι : Type*} [Fintype ι] (f : ι → EReal) (h : ∀ i, IsReal (f i)) :
    IsReal (∑ i, f i) :=
  IsReal.sum Finset.univ f fun i _ => h i

/-- A finite sum of products of reals (a row of a dense layer before its bias) is a real. -/
theorem IsReal.sum_mul {ι : Type*} (s : Finset ι) (f g : ι → EReal) (hf : ∀ i ∈ s, IsReal (f i))
    (hg : ∀ i ∈ s, IsReal (g i)) : IsReal (∑ i ∈ s, f i * g i) :=
  IsReal.sum s _ fun i hi => (hf i hi).mul (hg i hi)

/-- The same over a whole finite type. -/
theorem IsReal.sum_univ_mul {ι : Type*} [Fintype ι] (f g : ι → EReal) (hf : ∀ i, IsReal (f i))
    (hg : ∀ i, IsReal (g i)) : IsReal (∑ i, f i * g i) :=
  IsReal.sum_univ _ fun i => (hf i).mul (hg i)

/-- An accumulator plus a sum of products, all real (a contraction onto a real accumulator), is a real. -/
theorem IsReal.add_sum_univ_mul {ι : Type*} [Fintype ι] {acc : EReal} (hacc : IsReal acc) (f g : ι → EReal)
    (hf : ∀ i, IsReal (f i)) (hg : ∀ i, IsReal (g i)) : IsReal (acc + ∑ i, f i * g i) :=
  hacc.add (IsReal.sum_univ_mul f g hf hg)

/-- `tanh` of a real is a real: the ideal `tanh` is `Real.tanh` on the reals. -/
theorem IsReal.tanh {x : EReal} (hx : IsReal x) : IsReal (Ideal.tanh x) := by
  obtain ⟨a, rfl⟩ := hx; exact ⟨Real.tanh a, rfl⟩

/-- `exp` of a real is a positive real: the ideal `exp` is `Real.exp` on the reals. -/
theorem IsReal.exp {x : EReal} (hx : IsReal x) : IsPosReal (Ideal.exp x) := by
  obtain ⟨a, rfl⟩ := hx; exact ⟨Real.exp a, Real.exp_pos a, rfl⟩

/-- The sum of two positive reals is a positive real. -/
theorem IsPosReal.add {x y : EReal} (hx : IsPosReal x) (hy : IsPosReal y) : IsPosReal (x + y) := by
  obtain ⟨a, ha, rfl⟩ := hx; obtain ⟨b, hb, rfl⟩ := hy
  exact ⟨a + b, add_pos ha hb, (EReal.coe_add a b).symm⟩

/-- The product of two positive reals is a positive real. -/
theorem IsPosReal.mul {x y : EReal} (hx : IsPosReal x) (hy : IsPosReal y) : IsPosReal (x * y) := by
  obtain ⟨a, ha, rfl⟩ := hx; obtain ⟨b, hb, rfl⟩ := hy
  exact ⟨a * b, mul_pos ha hb, (EReal.coe_mul a b).symm⟩

/-- A nonempty finite sum of positive reals (a softmax's denominator) is a positive real. -/
theorem IsPosReal.sum {ι : Type*} {s : Finset ι} (hs : s.Nonempty) (f : ι → EReal)
    (h : ∀ i ∈ s, IsPosReal (f i)) : IsPosReal (∑ i ∈ s, f i) := by
  induction hs using Finset.Nonempty.cons_induction with
  | singleton a => rw [Finset.sum_singleton]; exact h a (Finset.mem_singleton_self a)
  | cons a s ha hs ih =>
    rw [Finset.sum_cons]
    exact (h a (Finset.mem_cons_self a s)).add (ih fun i hi => h i (Finset.mem_cons.mpr (Or.inr hi)))

/-- The same over a whole nonempty finite type. -/
theorem IsPosReal.sum_univ {ι : Type*} [Fintype ι] [Nonempty ι] (f : ι → EReal) (h : ∀ i, IsPosReal (f i)) :
    IsPosReal (∑ i, f i) :=
  IsPosReal.sum Finset.univ_nonempty f fun i _ => h i

/-- The ideal quotient of two coerced reals, the divisor nonzero, is the coerced real quotient. -/
theorem div_coe_coe (a : ℝ) {b : ℝ} (hb : b ≠ 0) : Ideal.div (a : EReal) (b : EReal) = ((a / b : ℝ) : EReal) := by
  rw [Ideal.div_coe hb, ← EReal.coe_mul, mul_one_div]

/-- A real divided by a nonzero real is a real. -/
theorem IsReal.div {x y : EReal} (hx : IsReal x) (hy : IsReal y) (h0 : y ≠ 0) : IsReal (Ideal.div x y) := by
  obtain ⟨a, rfl⟩ := hx; obtain ⟨b, rfl⟩ := hy
  have hb : b ≠ 0 := fun h => h0 (by rw [h, EReal.coe_zero])
  exact ⟨a / b, div_coe_coe a hb⟩

/-- A real divided by a positive real (a softmax's numerator by its denominator) is a real. -/
theorem IsReal.div_pos {x y : EReal} (hx : IsReal x) (hy : IsPosReal y) : IsReal (Ideal.div x y) :=
  hx.div hy.isReal hy.ne_zero

/-- A positive real divided by a positive real is a positive real. -/
theorem IsPosReal.div {x y : EReal} (hx : IsPosReal x) (hy : IsPosReal y) : IsPosReal (Ideal.div x y) := by
  obtain ⟨a, ha, rfl⟩ := hx; obtain ⟨b, hb, rfl⟩ := hy
  exact ⟨a / b, _root_.div_pos ha hb, div_coe_coe a hb.ne'⟩

/-- The fold of `max` over a nonempty finite family of reals, from an initial value that is not `⊤`
    (a row maximum taken from `-∞` or from a real), is a real. -/
theorem IsReal.fold_max {ι : Type*} {s : Finset ι} (hs : s.Nonempty) (f : ι → EReal) {b : EReal} (hb : b ≠ ⊤)
    (h : ∀ i ∈ s, IsReal (f i)) : IsReal (s.fold Max.max b f) := by
  rw [isReal_iff]
  constructor
  · exact ((Finset.fold_max_lt _).mpr ⟨lt_top_iff_ne_top.mpr hb, fun i hi => lt_top_iff_ne_top.mpr (h i hi).ne_top⟩).ne
  · obtain ⟨i, hi⟩ := hs
    exact ((Finset.lt_fold_max _).mpr (Or.inr ⟨i, hi, bot_lt_iff_ne_bot.mpr (h i hi).ne_bot⟩)).ne'

end Cert.Lib
-- ==== Proof.LibRowIndex.lean ====
/-
  Two index notions for a row gather followed by an accumulating row scatter.

  A list of E updates carries, per update e, one integer index (an [E, 1] array of words). Read as a
  GATHER index into an operand of N rows it is taken as a signed integer and clamped into [0, N - 1]:
  `gatherRow`. Read as a SCATTER index it is taken as a signed integer and NOT clamped: update e lands
  on row n exactly when that integer is n, and the updates landing on row n form the finite set
  `hits idx n` (an index outside [0, N) lands nowhere).
-/
import Idealize.ShloMosaic.Lib.ValueIdx

namespace Cert.Lib

open Idealize.ShloMosaic Idealize.ShloMosaic.ValueIdx

variable {N E w : Nat}

/-- The operand row an update row reads: its start index read as a signed integer and clamped into [0, N-1]. -/
def gatherRow (hN : 0 < N) (idx : IVec ⟨2, ![E, 1]⟩ w) (e : Fin E) : Fin N :=
  ⟨min (idx (ix2 e (0 : Fin 1))).toInt.toNat (N - 1), by omega⟩

/-- The update rows that land on operand row n: those whose scatter index, read signed and not clamped, is n. -/
def hits (idx : IVec ⟨2, ![E, 1]⟩ w) (n : Nat) : Finset (Fin E) :=
  Finset.univ.filter fun e => (idx (ix2 e (0 : Fin 1))).toInt = (n : Int)

end Cert.Lib
-- ==== Proof.Spec.lean ====
/-
  What both programs compute, as ONE function of the argument arrays on the extended reals.

  A graph has 200,000 nodes with 10 features each (`x`) and 12,800,000 edges. Edge `e` reads the
  features of the row `gatherRow sidx e` (its source index, clamped into range) and adds them onto
  the row its destination index names (`hits didx n` is the set of edges landing on node `n`; an
  index outside the range lands nowhere). For node `n`:

    featSum n k = 0 + Σ_{e lands on n} x[row e, k]        the summed features
    degree n    = 0 + Σ_{e lands on n} 1                  the number of incoming edges
    mean n k    = featSum n k / max (degree n) 1          the mean (a node with no edge keeps 0)
    out n j     = max (Σ_k mean n k · (W[j,k] + B[j,k])) 0

  One program applies the single matrix W + B, the other applies W and B separately and adds the
  two results: Σ_k a_k (w_k + b_k) = Σ_k a_k w_k + Σ_k a_k b_k. On the extended reals this needs
  every term to be a real (an infinite a_k against w_k + b_k = 0 breaks it), which holds when the
  float inputs are finite: a finite sum of reals is a real, the degree is a real, the divisor
  max (degree n) 1 is at least 1, and a real over a nonzero real is a real.
-/
import Idealize.ShloMosaic.PureOps.Ideal
import Idealize.ShloMosaic.PureOps.Ideal.Laws
import Idealize.ShloMosaic.Lib.ValueIdx
import proofs.«161889_j41480794145043_2_alg».proof.Proof.LibRealChain
import proofs.«161889_j41480794145043_2_alg».proof.Proof.LibRowIndex

noncomputable section

namespace Cert.Spec

open Idealize.ShloMosaic Idealize.ShloMosaic.ValueIdx Cert.Lib
open scoped BigOperators

/-- The f32 word of +0.0, as an extended real. -/
abbrev zero32 : EReal := Ideal.ofBits .f32 0x00000000#32
/-- The f32 word of 1.0, as an extended real. -/
abbrev one32 : EReal := Ideal.ofBits .f32 0x3F800000#32

/-- The word of +0.0 denotes 0. -/
theorem zero32_eq : zero32 = 0 := Ideal.ofBits_zero_f32
/-- The word of 1.0 denotes 1. -/
theorem one32_eq : one32 = 1 := by
  simp [Ideal.ofBits, Ideal.ieee, -EReal.coe_mul]; norm_num

theorem isReal_zero32 : IsReal zero32 := by rw [zero32_eq]; exact isReal_zero
theorem isReal_one32 : IsReal one32 := by rw [one32_eq]; exact isReal_one

section Fn

variable (x : (⟨2, ![200000, 10]⟩ : Shape).Idx → EReal) (W B : (⟨2, ![10, 10]⟩ : Shape).Idx → EReal)
  (sidx didx : IVec ⟨2, ![12800000, 1]⟩ 32)

/-- Feature `k` of the source rows of the edges landing on node `n`, summed from zero. -/
def featSum (n : Fin 200000) (k : Fin 10) : EReal :=
  zero32 + ∑ e ∈ hits didx n.val, x (ix2 (gatherRow (N := 200000) (by decide) sidx e) k)

/-- The number of edges landing on node `n`: a one per such edge, summed from zero. -/
def degree (n : Fin 200000) : EReal := zero32 + ∑ _e ∈ hits didx n.val, one32

/-- The mean of the incoming features: the sum over the degree, the degree clamped below at one. -/
def mean (n : Fin 200000) (k : Fin 10) : EReal :=
  Ideal.div (featSum x sidx didx n k) (max (degree didx n) one32)

/-- The result: the mean row through the matrix `W + B` (row `j` of it against the mean row), clamped below at zero. -/
def out : (⟨2, ![200000, 10]⟩ : Shape).Idx → EReal := fun i =>
  max (∑ k : Fin 10, mean x sidx didx (i 0) k * (W (ix2 (i 1) k) + B (ix2 (i 1) k))) zero32

/-- With real features every mean is a real: the divisor is at least one. -/
theorem isReal_mean (hx : ∀ i, IsReal (x i)) (n : Fin 200000) (k : Fin 10) : IsReal (mean x sidx didx n k) := by
  unfold mean featSum degree
  refine IsReal.div (isReal_zero32.add (IsReal.sum _ _ fun e _ => hx _))
    ((isReal_zero32.add (IsReal.sum _ _ fun _ _ => isReal_one32)).max isReal_one32) ?_
  have h : (0 : EReal) < max (zero32 + ∑ _e ∈ hits didx n.val, one32) one32 :=
    lt_max_of_lt_right (by rw [one32_eq]; exact zero_lt_one)
  exact h.ne'

end Fn

/-- A real times a sum of two reals distributes. -/
theorem mul_add_of_real {a w b : EReal} (ha : IsReal a) (hw : IsReal w) (hb : IsReal b) :
    a * (w + b) = a * w + a * b := by
  obtain ⟨a, rfl⟩ := ha; obtain ⟨w, rfl⟩ := hw; obtain ⟨b, rfl⟩ := hb
  rw [← EReal.coe_add, ← EReal.coe_mul, ← EReal.coe_mul, ← EReal.coe_mul, ← EReal.coe_add, mul_add]

/-- One matrix `W + B` against two matrices `W`, `B` and a sum of the results, row by row, over reals. -/
theorem sum_mul_add {ι : Type} [Fintype ι] (a w b : ι → EReal) (ha : ∀ k, IsReal (a k)) (hw : ∀ k, IsReal (w k))
    (hb : ∀ k, IsReal (b k)) : ∑ k, a k * (w k + b k) = ∑ k, a k * w k + ∑ k, a k * b k := by
  rw [← Finset.sum_add_distrib]
  exact Finset.sum_congr rfl fun k _ => mul_add_of_real (ha k) (hw k) (hb k)

/-- The result in the other arrangement: the mean row through `W` and through `B`, the two added. -/
theorem out_split (x : (⟨2, ![200000, 10]⟩ : Shape).Idx → EReal) (W B : (⟨2, ![10, 10]⟩ : Shape).Idx → EReal)
    (sidx didx : IVec ⟨2, ![12800000, 1]⟩ 32) (hx : ∀ i, IsReal (x i)) (hW : ∀ i, IsReal (W i)) (hB : ∀ i, IsReal (B i))
    (i : (⟨2, ![200000, 10]⟩ : Shape).Idx) :
    out x W B sidx didx i
      = max ((∑ k : Fin 10, mean x sidx didx (i 0) k * W (ix2 (i 1) k)) + ∑ k : Fin 10, mean x sidx didx (i 0) k * B (ix2 (i 1) k)) zero32 := by
  unfold out
  rw [sum_mul_add _ _ _ (fun k => isReal_mean x sidx didx hx (i 0) k) (fun k => hW _) (fun k => hB _)]

end Cert.Spec

end
-- ==== Proof.KernelBlock.lean ====
/-
  One block of the kernel, read at an index.

  At a grid point the body loads a 10000 × 11 block `v0` of the aggregated array (columns 0..9 the
  summed features, column 10 the edge count) and the whole 10 × 10 matrix `v9`, and stores, for row
  `p` and output column `q`,

      max (Σ_k (v0[p,k] / max v0[p,10] 1) · v9[q,k]) 0 :

  the division of the feature columns by the clamped count column, the product of that 10000 × 10
  matrix with the transpose of `v9` accumulated into zero, and the clamp at zero. A change of float
  format is the identity on the extended reals.
-/
import proofs.«161889_j41480794145043_2_alg».proof.Proof.Gen.KernelIdeal.Skeleton
import proofs.«161889_j41480794145043_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Block

open Cert.KernelIdeal Cert.KernelIdeal.Gen Idealize.ShloMosaic Idealize.ShloMosaic.ValueIdx Cert.Spec
open scoped BigOperators

variable [Facts]

/-- The block of means: the feature columns over the count column clamped below at one. -/
def meanBlk (v0 : FVec Ideal S10000x11 .f32) : FVec Ideal S10000x10 .bf16 :=
  truncf .bf16 (divf (extractStridedSlice S10000x10 ![0, 0] (shapeCast S10000x11 v0 Facts₀.shapeCasts_S10000x11_S10000x11) Facts₀.slices_S10000x11_o0_0_S10000x10)
    (broadcastTo S10000x10 (maximumf (extractStridedSlice S10000x1 ![0, 10] (shapeCast S10000x11 v0 Facts₀.shapeCasts_S10000x11_S10000x11) Facts₀.slices_S10000x11_o0_10_S10000x1)
      (broadcast S10000x1 (Scalar.ofBits .f32 0x3F800000#32))) Facts₀.broadcasts_S10000x1_S10000x10)) Facts₀.bitsLt_bf16_f32

/-- The matrix as the product's right operand: transposed. -/
def matT (v9 : FVec Ideal S10x10 .f32) : FVec Ideal S10x10 .bf16 :=
  transpose S10x10 [1, 0] (truncf .bf16 (shapeCast S10x10 v9 Facts₀.shapeCasts_S10x10_S10x10) Facts₀.bitsLt_bf16_f32) Facts₀.transposes_S10x10_p1_0_S10x10

/-- The stored value is the clamp of the product of the two. -/
theorem pay_eq (v0 : FVec Ideal S10000x11 .f32) (v9 : FVec Ideal S10x10 .f32) :
    k0_pay1 (F := Ideal) v0 v9 = maximumf (matmul dot_S10000x10_S10x10_S10000x10_1_0_0_1_n_n none (meanBlk v0) (matT v9) (constant S10000x10 .f32 0x00000000#32))
      (broadcast S10000x10 (Scalar.ofBits .f32 0x00000000#32)) := rfl

/-- A mean at row `p`, feature `k`: the block's entry over the row's clamped count. -/
theorem meanBlk_apply (v0 : FVec Ideal S10000x11 .f32) (p : Fin 10000) (k : Fin 10) :
    meanBlk v0 (ix2 p k) = Ideal.div (v0 (ix2 p k.castSucc)) (max (v0 (ix2 p (10 : Fin 11))) one32) := by
  unfold meanBlk
  rw [truncf_apply, divf_apply, shapeCast_self,
    extractStridedSlice_apply ![0, 0] v0 Facts₀.slices_S10000x11_o0_0_S10000x10 (ix2 p k) (ix2 p k.castSucc) (fun a => by
      match a with
      | ⟨0, _⟩ => show p.val = 0 + p.val; omega
      | ⟨1, _⟩ => show k.val = 0 + k.val; omega),
    broadcastTo_apply _ Facts₀.broadcasts_S10000x1_S10000x10 (ix2 p k) (ix2 p (0 : Fin 1)) (fun a => by
      match a with
      | ⟨0, _⟩ => show p.val = if (10000 : Nat) = 1 then 0 else p.val; rw [if_neg (by decide)]
      | ⟨1, _⟩ => show 0 = if (1 : Nat) = 1 then 0 else k.val; rw [if_pos rfl]),
    maximumf_apply,
    extractStridedSlice_apply ![0, 10] v0 Facts₀.slices_S10000x11_o0_10_S10000x1 (ix2 p (0 : Fin 1)) (ix2 p (10 : Fin 11)) (fun a => by
      match a with
      | ⟨0, _⟩ => show p.val = 0 + p.val; omega
      | ⟨1, _⟩ => rfl)]
  rfl

/-- The right operand at `(k, q)` is the matrix at `(q, k)`. -/
theorem matT_apply (v9 : FVec Ideal S10x10 .f32) (k q : Fin 10) : matT v9 (ix2 k q) = v9 (ix2 q k) := by
  unfold matT
  rw [transpose_ix2_apply, truncf_apply, shapeCast_self]

/-- The product's left operand index at output `j`, contraction `c`: row `j 0` … -/
theorem lhs_0 (j : S10000x10.Idx) (c : dot_S10000x10_S10x10_S10000x10_1_0_0_1_n_n.contr.Idx) :
    (dot_S10000x10_S10x10_S10000x10_1_0_0_1_n_n.lhsIdx j c 0).val = (j 0).val := by
  unfold DotDims.lhsIdx
  rw [dif_neg (show ¬(0 : Fin S10000x10.rank) ∈ dot_S10000x10_S10x10_S10000x10_1_0_0_1_n_n.lhsBatch by decide),
    dif_pos (show (0 : Fin S10000x10.rank) ∈ dot_S10000x10_S10x10_S10000x10_1_0_0_1_n_n.lhsNonContracting by decide)]
  rfl
/-- … column `c`; -/
theorem lhs_1 (j : S10000x10.Idx) (c : dot_S10000x10_S10x10_S10000x10_1_0_0_1_n_n.contr.Idx) :
    (dot_S10000x10_S10x10_S10000x10_1_0_0_1_n_n.lhsIdx j c 1).val = (c ⟨0, by decide⟩).val :=
  dot_S10000x10_S10x10_S10000x10_1_0_0_1_n_n.lhsIdx_val_of_single rfl j c
/-- the right operand's: row `c` … -/
theorem rhs_0 (j : S10000x10.Idx) (c : dot_S10000x10_S10x10_S10000x10_1_0_0_1_n_n.contr.Idx) :
    (dot_S10000x10_S10x10_S10000x10_1_0_0_1_n_n.rhsIdx j c 0).val = (c ⟨0, by decide⟩).val :=
  dot_S10000x10_S10x10_S10000x10_1_0_0_1_n_n.rhsIdx_val_of_single rfl j c
/-- … column `j 1`. -/
theorem rhs_1 (j : S10000x10.Idx) (c : dot_S10000x10_S10x10_S10000x10_1_0_0_1_n_n.contr.Idx) :
    (dot_S10000x10_S10x10_S10000x10_1_0_0_1_n_n.rhsIdx j c 1).val = (j 1).val := by
  unfold DotDims.rhsIdx
  rw [dif_neg (show ¬(1 : Fin S10x10.rank) ∈ dot_S10000x10_S10x10_S10000x10_1_0_0_1_n_n.rhsBatch by decide),
    dif_pos (show (1 : Fin S10x10.rank) ∈ dot_S10000x10_S10x10_S10000x10_1_0_0_1_n_n.rhsNonContracting by decide)]
  rfl

/-- THE STORED VALUE AT `(p, q)`. -/
theorem pay_apply (v0 : FVec Ideal S10000x11 .f32) (v9 : FVec Ideal S10x10 .f32) (p : Fin 10000) (q : Fin 10) :
    k0_pay1 (F := Ideal) v0 v9 (ix2 p q)
      = max (∑ k : Fin 10, Ideal.div (v0 (ix2 p k.castSucc)) (max (v0 (ix2 p (10 : Fin 11))) one32) * v9 (ix2 q k)) zero32 := by
  rw [pay_eq, maximumf_apply, broadcast_apply]
  refine congrArg (fun s => max s zero32) ?_
  simp only [matmul]
  rw [Ideal.matmul_constant_zero_apply,
    ← Equiv.sum_comp (ValueIdx.contrEquiv1 dot_S10000x10_S10x10_S10000x10_1_0_0_1_n_n 10 rfl rfl).symm]
  refine Finset.sum_congr rfl fun k _ => ?_
  have hk := ValueIdx.contrEquiv1_symm_val dot_S10000x10_S10x10_S10000x10_1_0_0_1_n_n 10 rfl rfl k
  have el : dot_S10000x10_S10x10_S10000x10_1_0_0_1_n_n.lhsIdx (ix2 p q)
      ((ValueIdx.contrEquiv1 dot_S10000x10_S10x10_S10000x10_1_0_0_1_n_n 10 rfl rfl).symm k) = ix2 p k := funext fun a => Fin.ext (by
    match a with
    | ⟨0, _⟩ => exact lhs_0 _ _
    | ⟨1, _⟩ => exact (lhs_1 _ _).trans hk)
  have er : dot_S10000x10_S10x10_S10000x10_1_0_0_1_n_n.rhsIdx (ix2 p q)
      ((ValueIdx.contrEquiv1 dot_S10000x10_S10x10_S10000x10_1_0_0_1_n_n 10 rfl rfl).symm k) = ix2 k q := funext fun a => Fin.ext (by
    match a with
    | ⟨0, _⟩ => exact (rhs_0 _ _).trans hk
    | ⟨1, _⟩ => exact rhs_1 _ _)
  rw [el, er, meanBlk_apply, matT_apply]

end Cert.KernelIdeal.Block

end
-- ==== Proof.KernelArray.lean ====
/-
  From the blocks to the whole array.

  The grid has 20 points; point `t` reads rows [10000·t, 10000·t + 10000) of the aggregated
  200000 × 11 array `A` and the whole 10 × 10 matrix `M`, and writes the same rows of the
  200000 × 10 result. Since each stored row depends only on the same row of `A` and on `M`,
  block `t` of the result is block `t` of ONE function of `A` and `M`,

      nodeOut A M (n, j) = max (Σ_k (A[n,k] / max A[n,10] 1) · M[j,k]) 0,

  and the 20 blocks cover the 200000 rows (row `n` lies in block `n / 10000`), so after the run
  the result array is `nodeOut A M`.
-/
import proofs.«161889_j41480794145043_2_alg».proof.Proof.Gen.KernelIdeal.Value
import proofs.«161889_j41480794145043_2_alg».proof.Proof.KernelBlock

noncomputable section

namespace Cert.KernelIdeal.Whole

open Cert.KernelIdeal Cert.KernelIdeal.Gen Cert.KernelIdeal.Value Cert.KernelIdeal.Block Cert.Spec
open Idealize.ShloMosaic Idealize.ShloMosaic.TcCoe Idealize.SL.Sem Idealize.ShloMosaic.ValueIdx
open Idealize.ShloMosaic.Pipeline (Dat)
open scoped BigOperators

variable (m : (ℓ : Loc nD τ sig) → Buf (Elt Ideal) ℓ) (ρ : Dev nD → PrngReg)

/-- One node's result row from its aggregated row and the matrix. -/
def nodeOut (A : S200000x11.Idx → EReal) (M : S10x10.Idx → EReal) : S200000x10.Idx → EReal := fun i =>
  max (∑ k : Fin 10, Ideal.div (A (ix2 (i 0) k.castSucc)) (max (A (ix2 (i 0) (10 : Fin 11))) one32) * M (ix2 (i 1) k)) zero32

theorem origin : (![0, 0] : Fin 2 → Nat) = fun _ => 0 := funext fun a => by fin_cases a <;> rfl

/-- The printed index maps over the grid: the input and the output move together down the rows, one block per
    point; the matrix stays put. -/
theorem index_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 19 :=
  (by decide +kernel : ∀ t : Fin grid0.N, _)

/-- Every block of rows is some point's. -/
theorem index_onto : ∀ q0 : Fin 20, ∃ t : Fin cfg0.N, win0_2.index t = ![q0.val, 0] :=
  (by decide +kernel : ∀ q0 : Fin 20, ∃ t : Fin grid0.N, win0_2.index t = ![q0.val, 0])

/-- One stored entry, when the loaded blocks are read off arrays `A` and `M` at the output entry's row and column:
    the entry of `nodeOut A M` there. -/
theorem point_eq (A : S200000x11.Idx → EReal) (M : S10x10.Idx → EReal) (v0 : FVec Ideal S10000x11 .f32) (v9 : FVec Ideal S10x10 .f32)
    (i : S200000x10.Idx) (p : Fin 10000) (q : Fin 10)
    (h0 : ∀ k' : Fin 11, v0 (ix2 p k') = A (ix2 (i 0) k')) (h1 : ∀ k : Fin 10, v9 (ix2 q k) = M (ix2 (i 1) k)) :
    k0_pay1 (F := Ideal) v0 v9 (ix2 p q) = nodeOut A M i := by
  rw [pay_apply]
  unfold nodeOut
  simp only [h0, h1]

/-- WHAT POINT `t` WRITES BACK is block `t` of `nodeOut` of the two arrays as the region finds them. -/
theorem flushed_eq (c : Dev nD) (t : Fin cfg0.N) :
    (dats m 0 c).flushed 2 t
      = ((cfg0.win 2).blk t).view.read (Elt Ideal) (nodeOut (V m c main_v11) (V m c main_v12)) := by
  rw [flushed2]
  unfold out0_2
  rw [View.canon_unit_zero origin]
  simp only [View.ld_unit_zero (S := S10000x11) origin, View.ld_unit_zero (S := S10x10) origin]
  obtain ⟨e0, e1, e2, e3, e4, e5⟩ := index_facts t
  funext j
  obtain ⟨p, q, rfl⟩ : ∃ (p : Fin 10000) (q : Fin 10), j = ix2 p q := ⟨j 0, j 1, eq_ix2 j⟩
  -- the write-back of the whole block, and a read through the output block, at one index; the array abstract
  have hR : ∀ G : S200000x10.Idx → EReal, View.read (Elt Ideal) ((View.whole main_v13).slice ((win0 2).rect t)) G (ix2 p q)
      = G (((cfg0.win 2).blk t).view.emb (ix2 p q)) := fun G => rfl
  have hL : (win0 2).cut (grid0.coords t) (k0_pay1 (iblk m c 0 t) (iblk m c 1 t)) (ix2 p q)
      = k0_pay1 (iblk m c 0 t) (iblk m c 1 t) (ix2 p q) := rfl
  refine hL.trans (Eq.trans ?_ (hR _).symm)
  -- the input blocks read where the output's block says; the arrays abstract
  have b0 : ∀ (A : S200000x11.Idx → EReal) (k' : Fin 11), ((cfg0.win 0).blk t).view.read (Elt Ideal) A (ix2 p k')
      = A (ix2 ((((cfg0.win 2).blk t).view.emb (ix2 p q)) 0) k') := fun A k' => by
    show A (((cfg0.win 0).blk t).view.emb (ix2 p k')) = _
    refine congrArg A ?_
    funext a; apply Fin.ext
    match a with
    | ⟨0, _⟩ => show win0_0.index t (0 : Fin 2) * 10000 + 1 * p.val = win0_2.index t (0 : Fin 2) * 10000 + 1 * p.val; omega
    | ⟨1, _⟩ => show win0_0.index t (1 : Fin 2) * 11 + 1 * k'.val = k'.val; omega
  have b1 : ∀ (M : S10x10.Idx → EReal) (k : Fin 10), ((cfg0.win 1).blk t).view.read (Elt Ideal) M (ix2 q k)
      = M (ix2 ((((cfg0.win 2).blk t).view.emb (ix2 p q)) 1) k) := fun M k => by
    show M (((cfg0.win 1).blk t).view.emb (ix2 q k)) = _
    refine congrArg M ?_
    funext a; apply Fin.ext
    match a with
    | ⟨0, _⟩ => show win0_1.index t (0 : Fin 2) * 10 + 1 * q.val = win0_2.index t (1 : Fin 2) * 10 + 1 * q.val; omega
    | ⟨1, _⟩ => show win0_1.index t (1 : Fin 2) * 10 + 1 * k.val = k.val; omega
  exact point_eq (V m c main_v11) (V m c main_v12) (iblk m c 0 t) (iblk m c 1 t) _ p q
    (fun k' => b0 (V m c main_v11) k') (fun k => b1 (V m c main_v12) k)

/-- An index of the array is in point `t`'s block iff each coordinate is in the block's range on its axis. -/
theorem mem_blk (t : Fin cfg0.N) (i : S200000x10.Idx) :
    i ∈ ((cfg0.win 2).blk t).view.set ↔ ∀ a : Fin 2, win0_2.index t a * S10000x10.size a ≤ (i a).val ∧ (i a).val < win0_2.index t a * S10000x10.size a + S10000x10.size a := by
  show i ∈ ((View.whole main_v13).slice (win0_2.rect t)).set ↔ _
  rw [View.set_slice_whole, Rect.mem_set_unit]
  exact Iff.rfl

/-- Every index of the result is in some point's block: row `n` in block `n / 10000`. -/
theorem cover (i : S200000x10.Idx) :
    ∃ t : Fin cfg0.N, (cfg0.win 2).flush t = true ∧ i ∈ ((cfg0.win 2).blk t).view.set := by
  have hi0 : (i 0).val < 200000 := (i 0).isLt
  have hi1 : (i 1).val < 10 := (i 1).isLt
  obtain ⟨t, ht⟩ := index_onto ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 10 ≤ (i 1).val ∧ (i 1).val < win0_2.index t (1 : Fin 2) * 10 + 10; omega

/-- THE RESULT ARRAY after the run. -/
theorem final (c : Dev nD) : (dats m 0 c).arrAt 2 cfg0.N = nodeOut (V m c main_v11) (V m c main_v12) :=
  (dats m 0 c).arrAt_eq_of_cover 2 (nodeOut (V m c main_v11) (V m c main_v12)) (fun t _ => flushed_eq m c t) cover

end Cert.KernelIdeal.Whole

end
-- ==== Proof.LibRowGatherScatter.lean ====
/-
  A row gather and an accumulating scatter, read at one index.

  An operand has N rows (of C columns, or of one scalar each); a list of E updates carries one integer index per
  update, an [E, 1] array of words of width w. Everything here is generic in the extents N, C, E and in w.

    • GATHER of rows: result element (e, k) is the operand's element (gatherRow e, k), where gatherRow e is update
      e's index read as a signed integer and clamped into [0, N - 1] (`gather_rows_apply`).
    • ACCUMULATING SCATTER of rows, at the ideal float instance (exact sums on the extended reals): result element
      (n, k) is the operand's element plus the sum of the updates' elements (e, k) over the updates e in
      `hits idx n`, those whose index read signed — and not clamped — is n (`scatterAdd_rows_apply`); an update
      whose index is outside [0, N) lands nowhere.
    • The same scatter with scalar updates into a vector of N entries (`scatterAdd_vec_apply`).

  The route for the scatter: an update lands on operand index i exactly when start plus window coordinate equals
  i's coordinate on every axis; for these dimension numbers the start is the update's index on the row axis and 0
  on the column axis, the window coordinate 0 on the row axis and the update's column on the column axis; the sum
  over the updates landing on (n, k) is then re-indexed along e ↦ (e, k).
-/
import Idealize.ShloMosaic.Lib.ValueIdx
import Idealize.ShloMosaic.PureOps.Ideal
import Idealize.ShloMosaic.PureOps.Contract
import proofs.«161889_j41480794145043_2_alg».proof.Proof.LibRowIndex

noncomputable section

namespace Cert.Lib

open Idealize.ShloMosaic Idealize.ShloMosaic.ValueIdx
open scoped BigOperators

variable {N C E w : Nat}

/-- Update row e lands on operand row n exactly when its scatter index, read signed, is n. -/
private theorem mem_hits (idx : IVec ⟨2, ![E, 1]⟩ w) (n : Nat) (e : Fin E) :
    e ∈ hits idx n ↔ (idx (ix2 e (0 : Fin 1))).toInt = (n : Int) := by
  unfold hits
  exact Finset.mem_filter.trans (and_iff_right (Finset.mem_univ e))

/-- An update lands on operand index i exactly when, on every axis, start plus window coordinate is i's coordinate. -/
private theorem resultIdx?_eq_some_iff {s si u : Shape} (d : ScatterDims s si u) (j : u.Idx) (idx : IVec si w) (i : s.Idx) :
    d.resultIdx? j idx = some i ↔ ∀ a, d.start j idx a + (d.window j a : Int) = ((i a).val : Int) := by
  unfold ScatterDims.resultIdx?
  split
  · rename_i h
    constructor
    · intro hi a
      have hi' := Option.some.inj hi
      have := congrArg (fun f => (f a).val) hi'
      simp only at this
      have h0 := (h a).1
      omega
    · intro hi
      congr 1
      funext a
      refine Fin.ext ?_
      have := hi a
      simp only
      omega
  · rename_i h
    constructor
    · intro hi; exact absurd hi (by simp)
    · intro hi
      exfalso
      apply h
      intro a
      have := hi a
      have := (i a).isLt
      omega

section Rows
variable (uw : ScatterDims.WF ⟨2, ![N, C]⟩ ⟨2, ![E, 1]⟩ ⟨2, ![E, C]⟩ [1] [0] [0] 1)

/-- The literal dimension numbers of a row scatter. -/
private abbrev rowsDims : ScatterDims ⟨2, ![N, C]⟩ ⟨2, ![E, 1]⟩ ⟨2, ![E, C]⟩ := ⟨[1], [0], [0], 1, uw⟩

/-- The scatter index update (e, k') reads is the index array's entry (e, 0). -/
private theorem rows_siIdx (j : (⟨2, ![E, C]⟩ : Shape).Idx) :
    (rowsDims uw).siIdx j ⟨List.idxOf (0 : Fin 2) (rowsDims uw).scatterDimsToOperandDims,
      List.idxOf_lt_length_iff.2 (List.mem_singleton.mpr rfl)⟩ = ix2 (j 0) (0 : Fin 1) := by
  funext b; refine Fin.ext ?_
  match b with
  | ⟨0, _⟩ => rfl
  | ⟨1, _⟩ => rfl

/-- On the row axis the window starts at update row e's index, read signed. -/
private theorem rows_start0 (j : (⟨2, ![E, C]⟩ : Shape).Idx) (idx : IVec ⟨2, ![E, 1]⟩ w) :
    (rowsDims uw).start j idx 0 = (idx (ix2 (j 0) (0 : Fin 1))).toInt := by
  unfold ScatterDims.start
  rw [dif_pos (show (0 : Fin 2) ∈ (rowsDims uw).scatterDimsToOperandDims from List.mem_singleton.mpr rfl)]
  rw [rows_siIdx]
  rfl

/-- On the column axis the window starts at 0. -/
private theorem rows_start1 (j : (⟨2, ![E, C]⟩ : Shape).Idx) (idx : IVec ⟨2, ![E, 1]⟩ w) :
    (rowsDims uw).start j idx 1 = 0 := by
  unfold ScatterDims.start
  rw [dif_neg (show (1 : Fin 2) ∉ ([0] : List (Fin 2)) by decide)]

/-- The row axis is inserted: its window coordinate is 0. -/
private theorem rows_window0 (j : (⟨2, ![E, C]⟩ : Shape).Idx) : (rowsDims uw).window j 0 = 0 := by
  unfold ScatterDims.window
  rw [dif_neg (by simp [ScatterDims.sKept, Shape.kept])]

/-- On the column axis the window coordinate is the update's column. -/
private theorem rows_window1 (j : (⟨2, ![E, C]⟩ : Shape).Idx) : (rowsDims uw).window j 1 = (j 1).val := by
  unfold ScatterDims.window
  rw [dif_pos (by simp [ScatterDims.sKept, Shape.kept])]
  rfl

end Rows

section Rows
variable (uw : ScatterDims.WF ⟨2, ![N, C]⟩ ⟨2, ![E, 1]⟩ ⟨2, ![E, C]⟩ [1] [0] [0] 1)

/-- For a row scatter, update (e, k') lands on (n, k) exactly when e's index, read signed, is n and k' = k. -/
private theorem rows_resultIdx?_iff (j : (⟨2, ![E, C]⟩ : Shape).Idx) (idx : IVec ⟨2, ![E, 1]⟩ w) (n : Fin N) (k : Fin C) :
    (rowsDims uw).resultIdx? j idx = some (ix2 n k) ↔
      (idx (ix2 (j 0) (0 : Fin 1))).toInt = (n.val : Int) ∧ j 1 = k := by
  rw [resultIdx?_eq_some_iff]
  constructor
  · intro h
    have h0 : (rowsDims uw).start j idx 0 + ((rowsDims uw).window j 0 : Int) = (n.val : Int) := h 0
    have h1 : (rowsDims uw).start j idx 1 + ((rowsDims uw).window j 1 : Int) = (k.val : Int) := h 1
    rw [rows_start0, rows_window0] at h0
    rw [rows_start1, rows_window1] at h1
    refine ⟨?_, Fin.ext ?_⟩
    · omega
    · omega
  · rintro ⟨h0, h1⟩ a
    match a with
    | ⟨0, _⟩ =>
      show (rowsDims uw).start j idx 0 + ((rowsDims uw).window j 0 : Int) = (n.val : Int)
      rw [rows_start0, rows_window0]
      omega
    | ⟨1, _⟩ =>
      show (rowsDims uw).start j idx 1 + ((rowsDims uw).window j 1 : Int) = (k.val : Int)
      rw [rows_start1, rows_window1, h1]
      omega

end Rows

/-- AN ACCUMULATING ROW SCATTER READ AT (n, k): the operand's element plus the sum, over the update rows whose index read
    signed is n, of the update's element in column k. -/
theorem scatterAdd_rows_apply {φ : FTy} (d : ScatterDims ⟨2, ![N, C]⟩ ⟨2, ![E, 1]⟩ ⟨2, ![E, C]⟩)
    (h1 : d.updateWindowDims = [1]) (h2 : d.insertedWindowDims = [0]) (h3 : d.scatterDimsToOperandDims = [0])
    (h4 : d.indexVectorDim = 1) (x : FVec Ideal ⟨2, ![N, C]⟩ φ) (idx : IVec ⟨2, ![E, 1]⟩ w)
    (upd : FVec Ideal ⟨2, ![E, C]⟩ φ) (n : Fin N) (k : Fin C) :
    Host.scatterAdd (F := Ideal) d x idx upd (ix2 n k) = x (ix2 n k) + ∑ e ∈ hits idx n.val, upd (ix2 e k) := by
  obtain ⟨uwd, iwd, sd, iv, wf⟩ := d
  dsimp only at h1 h2 h3 h4
  subst h1 h2 h3 h4
  show Ideal.hostScatterAdd (rowsDims wf) x idx upd (ix2 n k) = _
  unfold Ideal.hostScatterAdd
  congr 1
  have key : ∀ j : (⟨2, ![E, C]⟩ : Shape).Idx, (rowsDims wf).resultIdx? j idx = some (ix2 n k) → ix2 (j 0) k = j := by
    intro j hj
    have := ((rows_resultIdx?_iff wf j idx n k).1 hj).2
    rw [← this]; exact (eq_ix2 j).symm
  refine Finset.sum_nbij' (fun j => j 0) (fun e => ix2 e k) ?_ ?_ ?_ ?_ ?_
  · intro j hj
    have := (rows_resultIdx?_iff wf j idx n k).1 (Finset.mem_filter.1 hj).2
    exact (mem_hits idx n.val (j 0)).2 this.1
  · intro e he
    exact Finset.mem_filter.2 ⟨Finset.mem_univ _,
      (rows_resultIdx?_iff wf (ix2 e k) idx n k).2 ⟨(mem_hits idx n.val e).1 he, rfl⟩⟩
  · intro j hj
    exact key j (Finset.mem_filter.1 hj).2
  · intro e _; rfl
  · intro j hj
    exact congrArg upd (key j (Finset.mem_filter.1 hj).2).symm

section Vec
variable (uw : ScatterDims.WF ⟨1, ![N]⟩ ⟨2, ![E, 1]⟩ ⟨1, ![E]⟩ [] [0] [0] 1)

/-- The literal dimension numbers of a scatter of scalars into a vector. -/
private abbrev vecDims : ScatterDims ⟨1, ![N]⟩ ⟨2, ![E, 1]⟩ ⟨1, ![E]⟩ := ⟨[], [0], [0], 1, uw⟩

/-- The scatter index update e reads is the index array's entry (e, 0). -/
private theorem vec_siIdx (j : (⟨1, ![E]⟩ : Shape).Idx) :
    (vecDims uw).siIdx j ⟨List.idxOf (0 : Fin 1) (vecDims uw).scatterDimsToOperandDims,
      List.idxOf_lt_length_iff.2 (List.mem_singleton.mpr rfl)⟩ = ix2 (j 0) (0 : Fin 1) := by
  funext b; refine Fin.ext ?_
  match b with
  | ⟨0, _⟩ => rfl
  | ⟨1, _⟩ => rfl

/-- On the one operand axis the window starts at update e's index, read signed. -/
private theorem vec_start0 (j : (⟨1, ![E]⟩ : Shape).Idx) (idx : IVec ⟨2, ![E, 1]⟩ w) :
    (vecDims uw).start j idx 0 = (idx (ix2 (j 0) (0 : Fin 1))).toInt := by
  unfold ScatterDims.start
  rw [dif_pos (show (0 : Fin 1) ∈ (vecDims uw).scatterDimsToOperandDims from List.mem_singleton.mpr rfl)]
  rw [vec_siIdx]
  rfl

/-- The one operand axis is inserted: its window coordinate is 0. -/
private theorem vec_window0 (j : (⟨1, ![E]⟩ : Shape).Idx) : (vecDims uw).window j 0 = 0 := by
  unfold ScatterDims.window
  rw [dif_neg (by simp [ScatterDims.sKept, Shape.kept])]

/-- For a scatter of scalars into a vector, update e lands on n exactly when e's index, read signed, is n. -/
private theorem vec_resultIdx?_iff (j : (⟨1, ![E]⟩ : Shape).Idx) (idx : IVec ⟨2, ![E, 1]⟩ w) (n : Fin N) :
    (vecDims uw).resultIdx? j idx = some (ix1 n) ↔ (idx (ix2 (j 0) (0 : Fin 1))).toInt = (n.val : Int) := by
  rw [resultIdx?_eq_some_iff]
  constructor
  · intro h
    have h0 : (vecDims uw).start j idx 0 + ((vecDims uw).window j 0 : Int) = (n.val : Int) := h 0
    rw [vec_start0, vec_window0] at h0
    omega
  · intro h0 a
    match a with
    | ⟨0, _⟩ =>
      show (vecDims uw).start j idx 0 + ((vecDims uw).window j 0 : Int) = (n.val : Int)
      rw [vec_start0, vec_window0]
      omega

end Vec

/-- AN ACCUMULATING SCATTER OF SCALARS INTO A VECTOR READ AT n: the operand's element plus the sum of the updates whose
    index read signed is n. -/
theorem scatterAdd_vec_apply {φ : FTy} (d : ScatterDims ⟨1, ![N]⟩ ⟨2, ![E, 1]⟩ ⟨1, ![E]⟩)
    (h1 : d.updateWindowDims = []) (h2 : d.insertedWindowDims = [0]) (h3 : d.scatterDimsToOperandDims = [0])
    (h4 : d.indexVectorDim = 1) (x : FVec Ideal ⟨1, ![N]⟩ φ) (idx : IVec ⟨2, ![E, 1]⟩ w)
    (upd : FVec Ideal ⟨1, ![E]⟩ φ) (n : Fin N) :
    Host.scatterAdd (F := Ideal) d x idx upd (ix1 n) = x (ix1 n) + ∑ e ∈ hits idx n.val, upd (ix1 e) := by
  obtain ⟨uwd, iwd, sd, iv, wf⟩ := d
  dsimp only at h1 h2 h3 h4
  subst h1 h2 h3 h4
  show Ideal.hostScatterAdd (vecDims wf) x idx upd (ix1 n) = _
  unfold Ideal.hostScatterAdd
  congr 1
  refine Finset.sum_nbij' (fun j => j 0) (fun e => ix1 e) ?_ ?_ ?_ ?_ ?_
  · intro j hj
    have := (vec_resultIdx?_iff wf j idx n).1 (Finset.mem_filter.1 hj).2
    exact (mem_hits idx n.val (j 0)).2 this
  · intro e he
    exact Finset.mem_filter.2 ⟨Finset.mem_univ _, (vec_resultIdx?_iff wf (ix1 e) idx n).2 ((mem_hits idx n.val e).1 he)⟩
  · intro j _
    exact (eq_ix1 j).symm
  · intro e _; rfl
  · intro j _
    exact congrArg upd (eq_ix1 j)

section Gather
variable {α : Type}

section Dims
variable (ss : Fin 2 → Nat)
  (gw : GatherDims.WF ⟨2, ![N, C]⟩ ⟨2, ![E, 1]⟩ ⟨2, ![E, C]⟩ [1] [0] [] [0] [] 1 ss)

/-- The literal dimension numbers of a row gather, at any slice sizes. -/
private abbrev gRowsDims : GatherDims ⟨2, ![N, C]⟩ ⟨2, ![E, 1]⟩ ⟨2, ![E, C]⟩ := ⟨[1], [0], [], [], [0], 1, ss, gw⟩

/-- The start index result row e reads is the index array's entry (e, 0). -/
private theorem gRows_siIdx (j : (⟨2, ![E, C]⟩ : Shape).Idx) :
    (gRowsDims ss gw).siIdx j ⟨List.idxOf (0 : Fin 2) (gRowsDims ss gw).startIndexMap,
      List.idxOf_lt_length_iff.2 (List.mem_singleton.mpr rfl)⟩ = ix2 (j 0) (0 : Fin 1) := by
  funext b; refine Fin.ext ?_
  match b with
  | ⟨0, _⟩ => rfl
  | ⟨1, _⟩ => rfl

include gw in
/-- On the row axis the slice has one row. -/
private theorem gRows_slice0 : ss 0 = 1 :=
  (gRowsDims ss gw).slice_collapsed 0 (List.mem_singleton.mpr rfl)

/-- On the row axis the operand coordinate is the start index, read signed and clamped into [0, N - 1]. -/
private theorem gRows_coord0 (j : (⟨2, ![E, C]⟩ : Shape).Idx) (idx : IVec ⟨2, ![E, 1]⟩ w) :
    (gRowsDims ss gw).start j idx 0 + (gRowsDims ss gw).batchCoord j 0 + (gRowsDims ss gw).offCoord j 0
      = min (idx (ix2 (j 0) (0 : Fin 1))).toInt.toNat (N - 1) := by
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (gRowsDims ss gw).startIndexMap from List.mem_singleton.mpr rfl)]
  rw [gRows_siIdx]
  show min _ (N - ss 0) = _
  rw [gRows_slice0 ss gw]
  rfl

/-- On the column axis the operand coordinate is the result's column. -/
private theorem gRows_coord1 (j : (⟨2, ![E, C]⟩ : Shape).Idx) (idx : IVec ⟨2, ![E, 1]⟩ w) :
    (gRowsDims ss gw).start j idx 1 + (gRowsDims ss gw).batchCoord j 1 + (gRowsDims ss gw).offCoord j 1
      = (j 1).val := by
  rw [GatherDims.batchCoord_eq_zero _ _ _ List.not_mem_nil]
  unfold GatherDims.start
  rw [dif_neg (show (1 : Fin 2) ∉ ([0] : List (Fin 2)) by decide)]
  unfold GatherDims.offCoord
  rw [dif_pos (by simp [GatherDims.sKept, Shape.kept])]
  simp only [Nat.add_zero, Nat.zero_add]
  rfl

end Dims

/-- A ROW GATHER READ AT (e, k): the operand's element in column k of the row that update row e's start index, read
    signed and clamped into [0, N - 1], names. -/
theorem gather_rows_apply (hN : 0 < N) (d : GatherDims ⟨2, ![N, C]⟩ ⟨2, ![E, 1]⟩ ⟨2, ![E, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (x : (⟨2, ![N, C]⟩ : Shape).Idx → α) (idx : IVec ⟨2, ![E, 1]⟩ w) (e : Fin E) (k : Fin C) :
    Host.gather d x idx (ix2 e k) = x (ix2 (gatherRow hN idx e) k) := by
  obtain ⟨od, cd, ob, sb, sm, iv, ss, wf⟩ := d
  dsimp only at h1 h2 h3 h4 h5 h6
  subst h1 h2 h3 h4 h5 h6
  show x ((gRowsDims ss wf).operandIdx (ix2 e k) idx) = _
  congr 1
  funext a
  refine Fin.ext ?_
  match a with
  | ⟨0, _⟩ => exact gRows_coord0 ss wf (ix2 e k) idx
  | ⟨1, _⟩ => exact gRows_coord1 ss wf (ix2 e k) idx

end Gather

end Cert.Lib

end
-- ==== Proof.KernelHost.lean ====
/-
  The two arrays the region finds, and the kernel's run.

  Before the region the host appends a column of ones to the 200000 × 10 features (a 200000 × 11
  array), gathers one such row per edge (the edge's source row: the source index, moved up by the
  number of rows when negative, then clamped into range by the gather), and adds the gathered rows
  onto the rows the destination indices name, from zero. So in the aggregated array `A`

      A[n, k]  = 0 + Σ_{e lands on n} x[row e, k]   for k < 10  (the summed features),
      A[n, 10] = 0 + Σ_{e lands on n} 1                        (the number of incoming edges):

  the appended column turns the one scatter into both sums. The matrix the region finds is W + B.
  With these, the result array `nodeOut A (W + B)` is the specification's `out`.
-/
import proofs.«161889_j41480794145043_2_alg».proof.Proof.Gen.KernelIdeal.Value
import proofs.«161889_j41480794145043_2_alg».proof.Proof.KernelArray
import proofs.«161889_j41480794145043_2_alg».proof.Proof.LibRowGatherScatter
import Idealize.ShloMosaic.Lib.StableHlo.Run
import Idealize.ShloMosaic.Lib.Pipeline.Value

noncomputable section

namespace Cert.KernelIdeal.Whole

open Cert.KernelIdeal Cert.KernelIdeal.Gen Cert.KernelIdeal.Value Cert.Spec Cert.Lib
open Idealize.ShloMosaic Idealize.ShloMosaic.TcCoe Idealize.SL.Sem Idealize.ShloMosaic.ValueIdx Idealize.ShloMosaic.StableHlo
open scoped BigOperators

/-- The gather's start indices: a negative source index moved up by the number of rows, as an [E, 1] array. -/
def srcIdx (x3 : IVec S12800000 32) : IVec S12800000x1 32 :=
  broadcastInDim S12800000x1 ![0] Facts₀.bcast_S12800000_S12800000x1_0
    (select (cmpi .slt x3 (broadcastInDim S12800000 ![] Facts₀.bcast_S_S12800000 (constantI S_ 32 0#32)))
      (addi x3 (broadcastInDim S12800000 ![] Facts₀.bcast_S_S12800000 (constantI S_ 32 200000#32))) x3)

/-- The scatter's indices: the destination indices as an [E, 1] array. -/
def dstIdx (x4 : IVec S12800000 32) : IVec S12800000x1 32 :=
  broadcastInDim S12800000x1 ![0] Facts₀.bcast_S12800000_S12800000x1_0 x4

/-- A column of ones. -/
def onesCol : FVec Ideal S200000x1 .f32 :=
  broadcastInDim S200000x1 ![] Facts₀.bcast_S_S200000x1 (constant (F := Ideal) S_ .f32 0x3F800000#32)

/-- The features with a column of ones appended. -/
def aug (x0 : FVec Ideal S200000x10 .f32) : FVec Ideal S200000x11 .f32 :=
  concatenate S200000x11 1 [⟨S200000x10, x0⟩, ⟨S200000x1, onesCol⟩]
    Facts₀.concatenates_S200000x10_S200000x1_S200000x11_d1

/-- The aggregated array: the gathered rows added onto their destination rows, from zero. -/
def agg (x0 : FVec Ideal S200000x10 .f32) (x3 x4 : IVec S12800000 32) : FVec Ideal S200000x11 .f32 :=
  Host.scatterAdd (F := Ideal) scatter_S200000x11_S12800000x1_S12800000x11_1_0_0_1
    (broadcastInDim S200000x11 ![] Facts₀.bcast_S_S200000x11 (constant (F := Ideal) S_ .f32 0x00000000#32)) (dstIdx x4)
    (Host.gather gather_S200000x11_S12800000x1_S12800000x11_1_0_n_n_0_1_111 (aug x0) (srcIdx x3))

variable (m : (ℓ : Loc nD τ sig) → Buf (Elt Ideal) ℓ) (ρ : Dev nD → PrngReg)

/-- The first window's array, as the region finds it, is the aggregated array of the arguments. -/
theorem V_agg (c : Dev nD) : (V m c main_v11 : S200000x11.Idx → EReal)
    = agg (m ((c : Thread nD τ).loc main_arg0)) (m ((c : Thread nD τ).loc main_arg3)) (m ((c : Thread nD τ).loc main_arg4)) := by
  dsimp only [Gen.V, Gen.hostOps0]; after_results <;> rfl

/-- The second window's array is the sum of the two matrices. -/
theorem V_mat (c : Dev nD) : (V m c main_v12 : S10x10.Idx → EReal)
    = addf (F := Ideal) (s := S10x10) (φ := .f32) (m ((c : Thread nD τ).loc main_arg1)) (m ((c : Thread nD τ).loc main_arg2)) := by
  dsimp only [Gen.V, Gen.hostOps0]; after_results <;> rfl

/-- A feature column of the augmented array is the features' … -/
theorem aug_feat (x0 : FVec Ideal S200000x10 .f32) (r : Fin 200000) (k : Fin 10) :
    aug x0 (ix2 r k.castSucc) = x0 (ix2 r k) := by
  unfold aug
  exact concatenate_pair_apply_left (t := S200000x11) (s₁ := S200000x10) (s₂ := S200000x1) (1 : Fin 2) x0 onesCol
    Facts₀.concatenates_S200000x10_S200000x1_S200000x11_d1 (ix2 r k.castSucc) rfl (ix2 r k)
    (fun b => match b with | ⟨0, _⟩ => rfl | ⟨1, _⟩ => rfl)

/-- … and its last column holds ones. -/
theorem aug_one (x0 : FVec Ideal S200000x10 .f32) (r : Fin 200000) :
    aug x0 (ix2 r (10 : Fin 11)) = one32 := by
  unfold aug
  refine (concatenate_pair_apply_right (t := S200000x11) (s₁ := S200000x10) (s₂ := S200000x1) (1 : Fin 2) x0 onesCol
    Facts₀.concatenates_S200000x10_S200000x1_S200000x11_d1 (ix2 r (10 : Fin 11)) rfl rfl (ix2 r (0 : Fin 1))
    (fun b => match b with | ⟨0, _⟩ => fun _ => rfl | ⟨1, _⟩ => fun h => absurd rfl h) rfl).trans ?_
  rfl

/-- A feature column of the aggregated array is the summed features. -/
theorem agg_feat (x0 : FVec Ideal S200000x10 .f32) (x3 x4 : IVec S12800000 32) (n : Fin 200000) (k : Fin 10) :
    agg x0 x3 x4 (ix2 n k.castSucc) = featSum x0 (srcIdx x3) (dstIdx x4) n k := by
  unfold agg featSum
  rw [scatterAdd_rows_apply _ rfl rfl rfl rfl]
  refine congrArg₂ (· + ·) rfl (Finset.sum_congr rfl fun e _ => ?_)
  rw [gather_rows_apply (by decide) _ rfl rfl rfl rfl rfl rfl, aug_feat]

/-- The last column of the aggregated array is the number of incoming edges. -/
theorem agg_deg (x0 : FVec Ideal S200000x10 .f32) (x3 x4 : IVec S12800000 32) (n : Fin 200000) :
    agg x0 x3 x4 (ix2 n (10 : Fin 11)) = degree (dstIdx x4) n := by
  unfold agg degree
  rw [scatterAdd_rows_apply _ rfl rfl rfl rfl]
  refine congrArg₂ (· + ·) rfl (Finset.sum_congr rfl fun e _ => ?_)
  rw [gather_rows_apply (by decide) _ rfl rfl rfl rfl rfl rfl, aug_one]

/-- The result function at explicit coordinates. -/
theorem nodeOut_apply (A : S200000x11.Idx → EReal) (M : S10x10.Idx → EReal) (n : Fin 200000) (j : Fin 10) :
    nodeOut A M (ix2 n j)
      = max (∑ k : Fin 10, Ideal.div (A (ix2 n k.castSucc)) (max (A (ix2 n (10 : Fin 11))) one32) * M (ix2 j k)) zero32 := rfl

/-- The specification at explicit coordinates. -/
theorem out_apply (x : (⟨2, ![200000, 10]⟩ : Shape).Idx → EReal) (W B : (⟨2, ![10, 10]⟩ : Shape).Idx → EReal)
    (sidx didx : IVec ⟨2, ![12800000, 1]⟩ 32) (n : Fin 200000) (j : Fin 10) :
    Spec.out x W B sidx didx (ix2 n j)
      = max (∑ k : Fin 10, Ideal.div (featSum x sidx didx n k) (max (degree didx n) one32) * (W (ix2 j k) + B (ix2 j k))) zero32 := rfl

/-- The result array of the aggregated array and the summed matrices is the specification's. -/
theorem nodeOut_agg (x0 : FVec Ideal S200000x10 .f32) (x1 x2 : FVec Ideal S10x10 .f32) (x3 x4 : IVec S12800000 32) :
    nodeOut (agg x0 x3 x4) (addf (F := Ideal) (s := S10x10) (φ := .f32) x1 x2) = Spec.out x0 x1 x2 (srcIdx x3) (dstIdx x4) := by
  funext i
  obtain ⟨n, j, rfl⟩ : ∃ (n : Fin 200000) (j : Fin 10), i = ix2 n j := ⟨i 0, i 1, eq_ix2 i⟩
  rw [nodeOut_apply, out_apply]
  simp only [agg_feat, agg_deg, addf_apply]

/-- THE KERNEL'S RUN: every weakly fair execution terminates with the result array at the specification's
    function of the argument arrays, the arguments unchanged. -/
theorem run : θ_run defs (onTc (τ := τ) (main (F := Ideal))) ⟨m, fun _ => 0, ρ⟩ fun r => ∀ c : Dev nD,
      r.2.mem ((c : Thread nD τ).loc main_v13)
        = Spec.out (m ((c : Thread nD τ).loc main_arg0)) (m ((c : Thread nD τ).loc main_arg1)) (m ((c : Thread nD τ).loc main_arg2))
            (srcIdx (m ((c : Thread nD τ).loc main_arg3))) (dstIdx (m ((c : Thread nD τ).loc main_arg4)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans ((final m c).trans (by rw [V_agg, V_mat, nodeOut_agg])), (h c).2⟩)
    (run_blocks m ρ)

end Cert.KernelIdeal.Whole

end
-- ==== Proof.RefValue.lean ====
/-
  The reference computes the specification's function.

  The reference gathers, per edge, the 10 features of the edge's source row and adds them onto the
  destination rows from zero (the summed features); separately it adds a one per edge onto the
  destination entries of a vector from zero (the number of incoming edges); it divides the first by
  the second clamped below at one; it multiplies the resulting mean rows by the transpose of W and by
  the transpose of B, adds the two products, and clamps at zero. Read at an index this is the
  specification's `out` in its two-matrix arrangement, which over real inputs is `out` itself.
-/
import proofs.«161889_j41480794145043_2_alg».proof.Proof.Gen.ReferenceIdeal.Read
import proofs.«161889_j41480794145043_2_alg».proof.Proof.Spec
import proofs.«161889_j41480794145043_2_alg».proof.Proof.LibRowGatherScatter

noncomputable section

namespace Cert.ReferenceIdeal.RefValue

open Cert.ReferenceIdeal Cert.ReferenceIdeal.Read Cert.Spec Cert.Lib
open Idealize.ShloMosaic Idealize.ShloMosaic.ValueIdx
open scoped BigOperators

variable (x0 : (⟨S200000x10, .f32⟩ : BufTy).Contents (Elt Ideal)) (x1 x2 : (⟨S10x10, .f32⟩ : BufTy).Contents (Elt Ideal))
  (x3 x4 : (⟨S12800000, .i32⟩ : BufTy).Contents (Elt Ideal))

/-- The scattered gathered rows are the summed features. -/
theorem feat_apply (n : Fin 200000) (k : Fin 10) :
    val_main_v9 (F := Ideal) x0 x3 x4 (ix2 n k)
      = featSum x0 (val_main_v5 (F := Ideal) x3) (val_main_v8 (F := Ideal) x4) n k := by
  unfold val_main_v9 featSum
  rw [scatterAdd_rows_apply _ rfl rfl rfl rfl]
  refine congrArg₂ (· + ·) ?_ (Finset.sum_congr rfl fun e _ => ?_)
  · rw [val_main_v7_apply, val_main_cst_apply]; rfl
  · unfold val_main_v6
    rw [gather_rows_apply (by decide) _ rfl rfl rfl rfl rfl rfl]

/-- The scattered ones are the number of incoming edges. -/
theorem deg_apply (n : Fin 200000) :
    val_main_v13 (F := Ideal) x4 (ix1 n) = degree (val_main_v8 (F := Ideal) x4) n := by
  unfold val_main_v13 degree
  rw [scatterAdd_vec_apply _ rfl rfl rfl rfl]
  refine congrArg₂ (· + ·) ?_ (Finset.sum_congr rfl fun e _ => ?_)
  · rw [val_main_v11_apply, val_main_cst_2_apply]; rfl
  · rw [val_main_v10_apply, val_main_cst_1_apply]; rfl

/-- The quotient is the mean. -/
theorem mean_apply (n : Fin 200000) (k : Fin 10) :
    val_main_v18 (F := Ideal) x0 x3 x4 (ix2 n k)
      = mean x0 (val_main_v5 (F := Ideal) x3) (val_main_v8 (F := Ideal) x4) n k := by
  have e : idx_main_v16 (idx_main_v17 (ix2 n k)) = ix1 n := funext fun a => Fin.ext (by
    match a with
    | ⟨0, _⟩ => rfl)
  rw [val_main_v18_apply, feat_apply, val_main_v17_apply, val_main_v16_apply, val_main_v15_apply, e, deg_apply,
    val_main_v14_apply, val_main_cst_3_apply]
  rfl

/-- THE REFERENCE'S RESULT is the specification's function of the arguments, when the float arguments are reals. -/
theorem result_eq (h0 : ∀ i, IsReal (x0 i)) (h1 : ∀ i, IsReal (x1 i)) (h2 : ∀ i, IsReal (x2 i)) :
    val_main_v24 (F := Ideal) x0 x1 x2 x3 x4
      = Spec.out x0 x1 x2 (val_main_v5 (F := Ideal) x3) (val_main_v8 (F := Ideal) x4) := by
  funext i
  obtain ⟨n, j, rfl⟩ : ∃ (n : Fin 200000) (j : Fin 10), i = ix2 n j := ⟨i 0, i 1, eq_ix2 i⟩
  rw [Spec.out_split x0 x1 x2 _ _ h0 h1 h2 (ix2 n j)]
  rw [val_main_v24_apply, val_main_v23_apply, val_main_v20_apply, val_main_v22_apply, val_main_call0_v0_apply,
    val_main_call0_cst_apply]
  have el : ∀ k : Fin 10, lidx_main_v20 (ix2 n j) k = ix2 n k := fun k => funext fun a => Fin.ext (by
    match a with
    | ⟨0, _⟩ => rfl
    | ⟨1, _⟩ => rfl)
  have el' : ∀ k : Fin 10, lidx_main_v22 (ix2 n j) k = ix2 n k := fun k => funext fun a => Fin.ext (by
    match a with
    | ⟨0, _⟩ => rfl
    | ⟨1, _⟩ => rfl)
  have er : ∀ k : Fin 10, idx_main_v19 (ridx_main_v20 (ix2 n j) k) = ix2 j k := fun k => funext fun a => Fin.ext (by
    match a with
    | ⟨0, _⟩ => rfl
    | ⟨1, _⟩ => rfl)
  have er' : ∀ k : Fin 10, idx_main_v21 (ridx_main_v22 (ix2 n j) k) = ix2 j k := fun k => funext fun a => Fin.ext (by
    match a with
    | ⟨0, _⟩ => rfl
    | ⟨1, _⟩ => rfl)
  simp only [val_main_v19_apply, val_main_v21_apply, el, el', er, er', mean_apply]
  rfl

end Cert.ReferenceIdeal.RefValue

end
-- ==== Proof.FiniteInputs.lean ====
/-
  From the precondition "every float input is finite" to "every entry of the three float inputs is a real".

  The precondition is printed as the conjunction (by `and` on one-bit words) of three tests, one per float
  input `x`: the reduction by `and`, over every index, of the one-bit array `|x| < +∞`. The claim states that
  the conjunction is 1. A conjunction of one-bit words is 1 exactly when each word is 1; a reduction by `and`
  over every index that is 1 met a 1 at every index; and at one index `|x i| < +∞`, where `|x i|` is
  `max (x i) (-(x i))` on the extended reals and the pattern 0x7F800000 denotes `⊤`, excludes `x i = ⊤` (then
  `|x i| = ⊤`) and `x i = ⊥` (then `-(x i) = ⊤`): what is left is a real.
-/
import proofs.«161889_j41480794145043_2_alg».proof.Pre_finite_inputs
import proofs.«161889_j41480794145043_2_alg».proof.Proof.LibRealChain
import Idealize.ShloMosaic.Lib.ReduceAll
import Idealize.ShloMosaic.Lib.ValueIdx
import Idealize.ShloMosaic.PureOps.Ideal.Laws

namespace Cert.FiniteInputs

open Idealize.ShloMosaic

/-- The rank-0 shape has one index. -/
instance : Subsingleton Cert.Pre_finite_inputs.S_.Idx := ⟨fun a b => funext fun d => d.elim0⟩

/-- The f32 pattern 0x7F800000 denotes `+∞`. -/
theorem inf_eq_top : Ideal.ofBits .f32 0x7F800000#32 = (⊤ : EReal) := by
  simp [Ideal.ofBits, Ideal.ieee]

/-- An extended real whose absolute value `max x (-x)` is below `⊤` is a real. -/
theorem isReal_of_abs_lt_top (x : EReal) (h : max x (-x) < ⊤) : Cert.Lib.IsReal x := by
  rw [Cert.Lib.isReal_iff]
  rw [max_lt_iff] at h
  refine ⟨h.1.ne, ?_⟩
  rintro rfl
  exact absurd h.2 (by simp)

/-- One element of a finiteness test: the comparison `|x| < +∞` came out 1, so `x` is a real. -/
theorem isReal_of_test (x : EReal)
    (h : Ideal.cmp .olt (max x (-x)) (Ideal.ofBits .f32 0x7F800000#32) = 1#1) : Cert.Lib.IsReal x := by
  rw [inf_eq_top] at h
  by_cases hlt : max x (-x) < ⊤
  · exact isReal_of_abs_lt_top x hlt
  · exfalso
    simp [Ideal.cmp, hlt] at h

/-- One whole test: a reduction by `and` over every index of `|x| < +∞` that is 1 makes every entry a real. -/
theorem all_real {s u : Shape} {axes : List (Fin s.rank)} (x : FVec Ideal s .f32)
    (hb : Cert.Pre_finite_inputs.S_.BroadcastsInDim s (![] : Fin 0 → Fin s.rank))
    (init : u.Idx → BitVec 1) (hr : s.ReducesTo axes Cert.Pre_finite_inputs.S_) (hu : 0 < u.numel)
    (e : Host.reduce IntOp.andi
          (cmpf .olt (Host.absf x)
            (broadcastInDim s ![] hb (constant (F := Ideal) Cert.Pre_finite_inputs.S_ .f32 0x7F800000#32)))
          init hr hu ValueIdx.ix0 = 1#1) (i : s.Idx) : Cert.Lib.IsReal (x i) :=
  isReal_of_test (x i) (Host.reduce_andi_all _ init hr hu ValueIdx.ix0 e i)

theorem real_of_pre [Cert.Pre_finite_inputs.Facts] (x0 : FVec Ideal Cert.Pre_finite_inputs.S200000x10 .f32)
    (x1 x2 : FVec Ideal Cert.Pre_finite_inputs.S10x10 .f32) (x3 x4 : IVec Cert.Pre_finite_inputs.S12800000 32)
    (h : Cert.Pre_finite_inputs.fn (F := Ideal) x0 x1 x2 x3 x4 = fun _ => 1#1) :
    (∀ i, Cert.Lib.IsReal (x0 i)) ∧ (∀ i, Cert.Lib.IsReal (x1 i)) ∧ (∀ i, Cert.Lib.IsReal (x2 i)) := by
  have h0 := congrFun h ValueIdx.ix0
  dsimp only [Cert.Pre_finite_inputs.fn] at h0
  -- the two outer conjunctions are pointwise `and`s of one-bit words: read them at the one index
  change IntOp.andi (IntOp.andi _ _) _ = 1#1 at h0
  rw [IntOp.andi_eq_one, IntOp.andi_eq_one] at h0
  obtain ⟨⟨e0, e1⟩, e2⟩ := h0
  exact ⟨fun i => all_real x0 _ _ _ _ e0 i, fun i => all_real x1 _ _ _ _ e1 i,
    fun i => all_real x2 _ _ _ _ e2 i⟩

end Cert.FiniteInputs
-- ==== Proof.lean ====
/-
  The certificate's claims, assembled.

  A graph layer on 200,000 nodes with 10 features and 12,800,000 edges: every node takes the mean of
  the features of the source nodes of its incoming edges (a node with no incoming edge keeps zero),
  sends it through two 10 × 10 linear maps W and B, adds the results and clamps at zero. The kernel's
  program appends a column of ones to the features so that ONE gather-and-scatter-add over the edges
  yields both the summed features and the edge counts, forms the single matrix W + B on the host, and
  in twenty blocks of 10,000 rows divides, multiplies by the transpose of W + B and clamps. The
  reference scatters features and ones separately and multiplies by the transposes of W and of B.

  On the extended reals both are the function `Cert.Spec.out` of the argument arrays:
    • the kernel's run ends with its result array at `Spec.out` of the arguments
      (`Cert.KernelIdeal.Whole.run`): the blocks are restrictions of one whole-array function, and
      the appended column of the aggregated array is the edge count;
    • the reference's run ends at its operations' composed term, which read index by index is
      `Spec.out` in the two-matrix arrangement (`Cert.ReferenceIdeal.RefValue.result_eq`);
    • the two arrangements agree because Σ_k a_k (w_k + b_k) = Σ_k a_k w_k + Σ_k a_k b_k over reals,
      and every term is a real when the float inputs are finite — the one place the precondition
      is used (`Cert.FiniteInputs.real_of_pre`).
  The start indices of the gather and the indices of the scatter are the same integer expressions of
  the two index arguments in both programs, and are never opened.

  The three frames are the generated ones (the reference's is its run with the result dropped); the
  idealization rewrote nothing, so `preserves` is trivial.
-/
import proofs.«161889_j41480794145043_2_alg».proof.Defs
import proofs.«161889_j41480794145043_2_alg».proof.Proof.Gen.Kernel
import proofs.«161889_j41480794145043_2_alg».proof.Proof.Gen.Kernel.Skeleton
import proofs.«161889_j41480794145043_2_alg».proof.Proof.Gen.Kernel.Launch
import proofs.«161889_j41480794145043_2_alg».proof.Proof.Gen.Kernel.Points
import proofs.«161889_j41480794145043_2_alg».proof.Proof.Gen.Kernel.Frame
import proofs.«161889_j41480794145043_2_alg».proof.Proof.Gen.KernelIdeal
import proofs.«161889_j41480794145043_2_alg».proof.Proof.Gen.KernelIdeal.Skeleton
import proofs.«161889_j41480794145043_2_alg».proof.Proof.Gen.KernelIdeal.Launch
import proofs.«161889_j41480794145043_2_alg».proof.Proof.Gen.KernelIdeal.Points
import proofs.«161889_j41480794145043_2_alg».proof.Proof.Gen.KernelIdeal.Frame
import proofs.«161889_j41480794145043_2_alg».proof.Proof.Gen.ReferenceIdeal
import proofs.«161889_j41480794145043_2_alg».proof.Proof.Gen.Pre_finite_inputs
import proofs.«161889_j41480794145043_2_alg».proof.Proof.Gen.KernelIdeal.Value
import proofs.«161889_j41480794145043_2_alg».proof.Proof.Gen.ReferenceIdeal.Run
import proofs.«161889_j41480794145043_2_alg».proof.Proof.Gen.ReferenceIdeal.Read
import proofs.«161889_j41480794145043_2_alg».proof.Proof.KernelHost
import proofs.«161889_j41480794145043_2_alg».proof.Proof.RefValue
import proofs.«161889_j41480794145043_2_alg».proof.Proof.FiniteInputs
import Idealize.ShloMosaic.Adequacy
import Idealize.ShloMosaic.Init

noncomputable section

namespace Cert.Proof

open Idealize.ShloMosaic Idealize.ShloMosaic.TcCoe Idealize.SL.Sem

/-- The gather's start indices are the same expression of the source indices in both programs. -/
theorem srcIdx_eq (x3 : IVec Cert.KernelIdeal.S12800000 32) :
    Cert.ReferenceIdeal.Read.val_main_v5 (F := Ideal) x3 = Cert.KernelIdeal.Whole.srcIdx x3 := rfl

/-- The scatter's indices are the same expression of the destination indices in both programs. -/
theorem dstIdx_eq (x4 : IVec Cert.KernelIdeal.S12800000 32) :
    Cert.ReferenceIdeal.Read.val_main_v8 (F := Ideal) x4 = Cert.KernelIdeal.Whole.dstIdx x4 := rfl

theorem frame_k : Cert.frame_Kernel := fun m ρ _ => Cert.Kernel.Gen.frame m ρ
theorem frame_ki : Cert.frame_KernelIdeal := fun m ρ _ => Cert.KernelIdeal.Gen.frame m ρ
/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the result at `Spec.out` of the arguments. -/
theorem algebraic : Cert.algebraic_KernelIdeal_ReferenceIdeal := by
  intro m ρ m' ρ' hpre hagree
  refine ⟨fun c => Cert.Spec.out (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2))
      (Cert.KernelIdeal.Whole.srcIdx (m ((c : Thread Cert.KernelIdeal.nD Cert.KernelIdeal.τ).loc Cert.KernelIdeal.main_arg3)))
      (Cert.KernelIdeal.Whole.dstIdx (m ((c : Thread Cert.KernelIdeal.nD Cert.KernelIdeal.τ).loc Cert.KernelIdeal.main_arg4))),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4⟩ := hagree c
  obtain ⟨r0, r1, r2⟩ := Cert.FiniteInputs.real_of_pre _ _ _ _ _ (hpre c)
  rw [Cert.ReferenceIdeal.Read.val_main_v24_eq, a0, a1, a2, a3, a4,
    Cert.ReferenceIdeal.RefValue.result_eq _ _ _ _ _ r0 r1 r2, srcIdx_eq, dstIdx_eq]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
